-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S4096x4096 : Shape := ⟨2, ![4096, 4096]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S64x4096 .f32) (main_arg1 : FVec F S4096x4096 .f32) (main_arg2 : IVec S4096x4096 1) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S64x4096 : Shape := ⟨2, ![64, 4096]⟩
abbrev S4096x4096 : Shape := ⟨2, ![4096, 4096]⟩
abbrev S128x4096 : Shape := ⟨2, ![128, 4096]⟩
abbrev S64x512 : Shape := ⟨2, ![64, 512]⟩
abbrev S64x128 : Shape := ⟨2, ![64, 128]⟩

abbrev nBuf : Space → Nat
  | .hbm => 8
  | .vmem => 19
  | .smem => 0
  | _ => 0

abbrev bufTy : (tb : Table) → Fin (tcTables nBuf tb) → BufTy
  | .hbm, ⟨0, _⟩ => ⟨S64x4096, .f32⟩
  | .hbm, ⟨1, _⟩ => ⟨S4096x4096, .f32⟩
  | .hbm, ⟨2, _⟩ => ⟨S4096x4096, .i1⟩
  | .hbm, ⟨3, _⟩ => ⟨S4096x4096, .i32⟩
  | .hbm, ⟨4, _⟩ => ⟨S4096x4096, .i32⟩
  | .hbm, ⟨5, _⟩ => ⟨S4096x4096, .i32⟩
  | .hbm, ⟨6, _⟩ => ⟨S4096x4096, .i32⟩
  | .hbm, ⟨7, _⟩ => ⟨S64x4096, .f32⟩
  | .local _ .vmem, ⟨0, _⟩ => ⟨S64x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .i32⟩
  | .local _ .vmem, ⟨10, _⟩ => ⟨S128x4096, .i32⟩
  | .local _ .vmem, ⟨11, _⟩ => ⟨S128x4096, .i32⟩
  | .local _ .vmem, ⟨12, _⟩ => ⟨S128x4096, .i32⟩
  | .local _ .vmem, ⟨13, _⟩ => ⟨S128x4096, .i32⟩
  | .local _ .vmem, ⟨14, _⟩ => ⟨S128x4096, .i32⟩
  | .local _ .vmem, ⟨15, _⟩ => ⟨S128x4096, .i32⟩
  | .local _ .vmem, ⟨16, _⟩ => ⟨S128x4096, .i32⟩
  | .local _ .vmem, ⟨17, _⟩ => ⟨S64x512, .f32⟩
  | .local _ .vmem, ⟨18, _⟩ => ⟨S64x512, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4096 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x4096 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  natLt_1_32 : 1 < 32
  inb_S64x4096_S64x4096_0_0 : ∀ a, (![0, 0] : Fin 2 → Nat) a + S64x4096.size a ≤ S64x4096.size a
  h_S64x4096 : 0 < S64x4096.numel
  inb_S128x4096_S128x4096_0_0 : ∀ a, (![0, 0] : Fin 2 → Nat) a + S128x4096.size a ≤ S128x4096.size a
  h_S128x4096 : 0 < S128x4096.numel
  inb_S64x512_S64x128_0_0 : ∀ a, (![0, 0] : Fin 2 → Nat) a + S64x128.size a ≤ S64x512.size a
  h_S64x128 : 0 < S64x128.numel
  inb_S64x512_S64x128_0_128 : ∀ a, (![0, 128] : Fin 2 → Nat) a + S64x128.size a ≤ S64x512.size a
  inb_S64x512_S64x128_0_256 : ∀ a, (![0, 256] : Fin 2 → Nat) a + S64x128.size a ≤ S64x512.size a
  inb_S64x512_S64x128_0_384 : ∀ a, (![0, 384] : Fin 2 → Nat) a + S64x128.size a ≤ S64x512.size a
  dot_S64x4096_S128x4096_S64x128_1_1_0_0_n_n_wf : DotDims.WF S64x4096 S128x4096 S64x128 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S64x4096.size a
  hwx0_0 : ∀ i : grid0.Coords, EltTy.bits .f32 = 32 ∨ (Rect.block (s := S64x4096) S64x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S4096x4096.size a
  hwx0_1 : ∀ i : grid0.Coords, EltTy.bits .f32 = 32 ∨ (Rect.block (s := S4096x4096) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S4096x4096.size a
  hwx0_2 : ∀ i : grid0.Coords, EltTy.bits .f32 = 32 ∨ (Rect.block (s := S4096x4096) S128x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S4096x4096.size a
  hwx0_3 : ∀ i : grid0.Coords, EltTy.bits .f32 = 32 ∨ (Rect.block (s := S4096x4096) S128x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S4096x4096.size a
  hwx0_4 : ∀ i : grid0.Coords, EltTy.bits .f32 = 32 ∨ (Rect.block (s := S4096x4096) S128x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x4096.size a ≤ S4096x4096.size a
  hwx0_5 : ∀ i : grid0.Coords, EltTy.bits .i32 = 32 ∨ (Rect.block (s := S4096x4096) S128x4096.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x4096.size a ≤ S4096x4096.size a
  hwx0_6 : ∀ i : grid0.Coords, EltTy.bits .i32 = 32 ∨ (Rect.block (s := S4096x4096) S128x4096.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x4096.size a ≤ S4096x4096.size a
  hwx0_7 : ∀ i : grid0.Coords, EltTy.bits .i32 = 32 ∨ (Rect.block (s := S4096x4096) S128x4096.size (cc0_transform_7 i) (hinb0_7 i)).WholeWords (EltTy.packing .i32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x4096.size a ≤ S4096x4096.size a
  hwx0_8 : ∀ i : grid0.Coords, EltTy.bits .i32 = 32 ∨ (Rect.block (s := S4096x4096) S128x4096.size (cc0_transform_8 i) (hinb0_8 i)).WholeWords (EltTy.packing .i32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S64x512.size a ≤ S64x4096.size a
  hwx0_9 : ∀ i : grid0.Coords, EltTy.bits .f32 = 32 ∨ (Rect.block (s := S64x4096) S64x512.size (cc0_transform_9 i) (hinb0_9 i)).WholeWords (EltTy.packing .f32)

variable [Facts₀]

def dot_S64x4096_S128x4096_S64x128_1_1_0_0_n_n : DotDims S64x4096 S128x4096 S64x128 where
  lhsContracting := [1]
  rhsContracting := [1]
  lhsNonContracting := [0]
  rhsNonContracting := [0]
  lhsBatch := []
  rhsBatch := []
  wf := dot_S64x4096_S128x4096_S64x128_1_1_0_0_n_n_wf

abbrev win0_0 : Pipeline.Window sig grid0 :=
  Pipeline.Window.ofSpec (Memref.whole main_arg0) S64x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S128x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S128x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S128x4096.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S128x4096.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2) S128x4096.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3) S128x4096.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4) S64x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S64x4096 : Shape := ⟨2, ![64, 4096]⟩
abbrev S4096x4096 : Shape := ⟨2, ![4096, 4096]⟩
abbrev S4096x64 : Shape := ⟨2, ![4096, 64]⟩

abbrev nBuf : Space → Nat
  | .hbm => 8
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S4096x4096, .f32⟩
  | .hbm, ⟨2, _⟩ => ⟨S4096x4096, .i1⟩
  | .hbm, ⟨3, _⟩ => ⟨S4096x4096, .f32⟩
  | .hbm, ⟨4, _⟩ => ⟨S4096x4096, .f32⟩
  | .hbm, ⟨5, _⟩ => ⟨S4096x64, .f32⟩
  | .hbm, ⟨6, _⟩ => ⟨S4096x64, .f32⟩
  | .hbm, ⟨7, _⟩ => ⟨S64x4096, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S64x4096_S4096x64_1_0 : S64x4096.Transposes [1, 0] S4096x64
  transposes_S4096x64_S64x4096_1_0 : S4096x64.Transposes [1, 0] S64x4096
  dot_S4096x4096_S4096x64_S4096x64_1_0_0_1_n_n_wf : DotDims.WF S4096x4096 S4096x64 S4096x64 [1] [0] [0] [1] [] []

variable [Facts₀]

def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf

class Facts : Prop extends Facts₀ where

variable [Facts]
-- ==== Proof.BitsEntry.lean ====
/-
  The kernel program up to its one region, and what the region finds.

  @main first widens the mask from one bit to a 32-bit word four times (one copy per stream of the mask), then
  launches the kernel. `entry` is the contents of the core's buffers when the region is entered: the launch
  contents after those four conversions. The three argument arrays are untouched by them. A window's block at a
  grid point is the rectangle of its array that the point's index map selects; an input window's current staging
  buffer holds exactly that block whenever the body runs, whether the point fetched it or the index had not moved.
-/
import proofs.«173766_g76295799046852_cont_9to1_m_449_5_alg».proof.Proof.Gen.Kernel.Launch
import proofs.«173766_g76295799046852_cont_9to1_m_449_5_alg».proof.Proof.Gen.Kernel.Skeleton
import proofs.«173766_g76295799046852_cont_9to1_m_449_5_alg».proof.Proof.Gen.Kernel.Points
import Idealize.ShloMosaic.Lib.Pipeline.FrameBody
import Idealize.ShloMosaic.Lib.StableHlo.Run
import Idealize.ShloMosaic.Lib.Ring
import Idealize.ShloMosaic.Lib.Tactic

set_option maxRecDepth 16384

noncomputable section

namespace Cert.Kernel.Frame

open Cert.Kernel Cert.Kernel.Gen Cert.Kernel.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the four mask conversions. -/
abbrev entry (c : Dev nD) (b : Ref sig .tc) : Buf (Elt F) ((c : Thread nD τ).loc b) :=
  StableHlo.after hostOps0 (fun b => m (c, b)) b

/-- None of the four conversions allocates a buffer. -/
theorem hostOps0_fresh : (hostOps0 : List (HloOp τ sig (Elt F))).Forall fun op => op.fresh = ∅ := by
  simp only [List.Forall]; repeat' constructor

/-- @main is the four conversions and then the region: holding the unscoped buffers at the launch contents it
    reduces to the region holding them at `entry`. -/
theorem main_to_region (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh fun c => (main_chain c).trans rfl

/-- The conversions write the four word copies of the mask and nothing else: each argument is as launched. -/
theorem entry_main_arg0 (c : Dev nD) : entry m c main_arg0 = m ((c : Thread nD τ).loc main_arg0) := by
  dsimp only [entry, hostOps0]; after_results
theorem entry_main_arg1 (c : Dev nD) : entry m c main_arg1 = m ((c : Thread nD τ).loc main_arg1) := by
  dsimp only [entry, hostOps0]; after_results
theorem entry_main_arg2 (c : Dev nD) : entry m c main_arg2 = m ((c : Thread nD τ).loc main_arg2) := by
  dsimp only [entry, hostOps0]; after_results

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-! Each input window's current staging buffer holds its block at every point, for any proof data whose array is the
    entry contents and whose body leaves the block in place: a point that fetches the window fills the buffer with the
    block, and a point that does not has the same block index as the one before. -/

theorem staged_0_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem staged_1_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem staged_2_of {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem staged_3_of {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem staged_4_of {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem staged_5_of {c : Dev nD} (dat : Dat τ (Elt F) Unit ℕ (UR sig nD τ) ℕ cfg0 c) (hA : dat.A 5 = entry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
theorem staged_6_of {c : Dev nD} (dat : Dat τ (Elt F) Unit ℕ (UR sig nD τ) ℕ cfg0 c) (hA : dat.A 6 = entry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)
theorem staged_7_of {c : Dev nD} (dat : Dat τ (Elt F) Unit ℕ (UR sig nD τ) ℕ cfg0 c) (hA : dat.A 7 = entry m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)
theorem staged_8_of {c : Dev nD} (dat : Dat τ (Elt F) Unit ℕ (UR sig nD τ) ℕ cfg0 c) (hA : dat.A 8 = entry m c (Pipeline.arrRef spec0 8))
    (hafter : ∀ t, dat.after 8 t = blockAt m c 8 t) (t : Fin cfg0.N) (d) : dat.before 8 t d = blockAt m c 8 t :=
  (dat.before_in_eq_fetched 8 rfl (fun _ => rfl) (fun _ _ _ => rfl) (fun t => by rw [hafter]; unfold Dat.blockOf blockAt; rw [hA]; try rfl) t d).trans
    (by unfold Dat.fetched Dat.blockOf blockAt; rw [hA]; try rfl)

end Cert.Kernel.Frame

end
-- ==== Proof.BitsBody.lean ====
/-
  The kernel body at one grid point.

  The body reads the activations' block (64 × 4096) once and, for each of the four streams r = 0..3, reads 128 rows
  of the weights and the same 128 rows of the mask, multiplies them entry by entry, contracts the activations
  against the product, and stores the 64 × 128 result into columns [128 r, 128 r + 128) of the 64 × 512 output
  buffer. The four column slices tile the buffer, so after the body the buffer holds, slice by slice, the four
  products — whatever it held before. The inputs' buffers are left as they were.
-/
import proofs.«173766_g76295799046852_cont_9to1_m_449_5_alg».proof.Proof.BitsEntry

set_option maxRecDepth 16384

noncomputable section

namespace Cert.Kernel.Frame

open Cert.Kernel Cert.Kernel.Gen Cert.Kernel.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes -/

/-- The whole activations' block, and a whole block of 128 rows (of the weights, of the mask). -/
abbrev rAct : Rect S64x4096 := Rect.unit (s := S64x4096) ![0, 0] S64x4096.size Gen.inb_S64x4096_S64x4096_0_0
abbrev rRows : Rect S128x4096 := Rect.unit (s := S128x4096) ![0, 0] S128x4096.size Gen.inb_S128x4096_S128x4096_0_0
/-- The four column slices of the output buffer, 128 columns each. -/
abbrev rCol0 : Rect S64x512 := Rect.unit (s := S64x512) ![0, 0] S64x128.size Gen.inb_S64x512_S64x128_0_0
abbrev rCol1 : Rect S64x512 := Rect.unit (s := S64x512) ![0, 128] S64x128.size Gen.inb_S64x512_S64x128_0_128
abbrev rCol2 : Rect S64x512 := Rect.unit (s := S64x512) ![0, 256] S64x128.size Gen.inb_S64x512_S64x128_0_256
abbrev rCol3 : Rect S64x512 := Rect.unit (s := S64x512) ![0, 384] S64x128.size Gen.inb_S64x512_S64x128_0_384

/-! ## What the body leaves in the output buffer -/

/-- The output buffer after the body, from the nine input blocks: its four stores as pieces, the last store first.
    Slice r holds the activations contracted against rows of stream r's masked weights. -/
def outBuf (x : Vec F S64x4096 .f32) (w0 w1 w2 w3 : Vec F S128x4096 .f32) (k0 k1 k2 k3 : Vec F S128x4096 .i32) : Vec F S64x512 .f32 :=
  View.canon [⟨rCol3, k0_pay1 (View.ld x rAct) (View.ld w3 rRows) (View.ld k3 rRows)⟩,
    ⟨rCol2, k0_pay4 (View.ld x rAct) (View.ld w2 rRows) (View.ld k2 rRows)⟩,
    ⟨rCol1, k0_pay3 (View.ld x rAct) (View.ld w1 rRows) (View.ld k1 rRows)⟩,
    ⟨rCol0, k0_pay2 (View.ld x rAct) (View.ld w0 rRows) (View.ld k0 rRows)⟩]

/-- The four slices tile the buffer, so every entry lies in one of them. -/
theorem outBuf_cover (p3 p2 p1 p0 : Vec F S64x128 .f32) (y : S64x512.Idx) :
    ∃ pc ∈ ([⟨rCol3, p3⟩, ⟨rCol2, p2⟩, ⟨rCol1, p1⟩, ⟨rCol0, p0⟩] : List (View.Piece (Elt F) S64x512 .f32)), y ∈ pc.1.set :=
  View.cover_of_tiled [⟨rCol3, p3⟩, ⟨rCol2, p2⟩, ⟨rCol1, p1⟩, ⟨rCol0, p0⟩] S64x128.size (by rfl) y

/-! ## The body's triple -/

set_option maxHeartbeats 4000000 in
/-- The body on whole staging memrefs — the nine inputs' at read contents, the output's at anything — runs to the
    continuation holding the inputs' as they were and the output's at `outBuf` of the inputs'. -/
theorem body_triple (c : Dev nD) (E : Set ℕ) (i : grid0.Coords)
    (a1 : Memref sig .tc .vmem S64x4096 .f32) (h1 : a1.IsWhole)
    (a2 : Memref sig .tc .vmem S128x4096 .f32) (h2 : a2.IsWhole) (a3 : Memref sig .tc .vmem S128x4096 .f32) (h3 : a3.IsWhole)
    (a4 : Memref sig .tc .vmem S128x4096 .f32) (h4 : a4.IsWhole) (a5 : Memref sig .tc .vmem S128x4096 .f32) (h5 : a5.IsWhole)
    (a6 : Memref sig .tc .vmem S128x4096 .i32) (h6 : a6.IsWhole) (a7 : Memref sig .tc .vmem S128x4096 .i32) (h7 : a7.IsWhole)
    (a8 : Memref sig .tc .vmem S128x4096 .i32) (h8 : a8.IsWhole) (a9 : Memref sig .tc .vmem S128x4096 .i32) (h9 : a9.IsWhole)
    (a10 : Memref sig .tc .vmem S64x512 .f32) (h10 : a10.IsWhole)
    (x : Vec F S64x4096 .f32) (w0 w1 w2 w3 : Vec F S128x4096 .f32) (k0 k1 k2 k3 : Vec F S128x4096 .i32) (K : PUnit → sProp 𝕄) :
    iprop(owns (c : Thread nD τ) a1 fullShare x
        ∗ owns (c : Thread nD τ) a2 fullShare w0 ∗ owns (c : Thread nD τ) a3 fullShare w1
        ∗ owns (c : Thread nD τ) a4 fullShare w2 ∗ owns (c : Thread nD τ) a5 fullShare w3
        ∗ owns (c : Thread nD τ) a6 fullShare k0 ∗ owns (c : Thread nD τ) a7 fullShare k1
        ∗ owns (c : Thread nD τ) a8 fullShare k2 ∗ owns (c : Thread nD τ) a9 fullShare k3
        ∗ (∃ d, owns (c : Thread nD τ) a10 fullShare d)
        ∗ (iprop(owns (c : Thread nD τ) a1 fullShare x
            ∗ owns (c : Thread nD τ) a2 fullShare w0 ∗ owns (c : Thread nD τ) a3 fullShare w1
            ∗ owns (c : Thread nD τ) a4 fullShare w2 ∗ owns (c : Thread nD τ) a5 fullShare w3
            ∗ owns (c : Thread nD τ) a6 fullShare k0 ∗ owns (c : Thread nD τ) a7 fullShare k1
            ∗ owns (c : Thread nD τ) a8 fullShare k2 ∗ owns (c : Thread nD τ) a9 fullShare k3
            ∗ owns (c : Thread nD τ) a10 fullShare (outBuf x w0 w1 w2 w3 k0 k1 k2 k3)) -∗ K ⟨⟩))
      ⊢ wp frame (wpE (defs₀ (F := F)) Variants.none c none) E
          (cc0__mm_body i a1 h1 a2 h2 a3 h3 a4 h4 a5 h5 a6 h6 a7 h7 a8 h8 a9 h9 a10 h10) K := by
  simp only [cc0__mm_body_eq_skeleton]; unfold cc0__mm_body_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩,
    ⟨%f8, %e8, H8⟩, ⟨%f9, %e9, H9⟩, ⟨%d10, %f10, -, H10⟩, Hk⟩
  subst e1 e2 e3 e4 e5 e6 e7 e8 e9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (outBuf_cover _ _ _ _)

end Cert.Kernel.Frame

end
-- ==== Proof.BitsData.lean ====
/-
  The pipeline's proof data and the body obligation.

  Ten windows: the activations (window 0), four windows on the ONE weight array (1–4, each selecting its own 128
  rows per point), four windows on the four word copies of the mask (5–8), and the output (9). Since the four weight
  windows read one array, the array's full share is dealt among them in quarters; every other window holds its array
  whole. After the body at a point each input's buffer holds its block, unchanged, and the output's buffer holds the
  four products slice by slice. The region's invariant is only what the body may use and need not describe (the
  core's scoped buffers that are no staging buffer — here there is none); nothing is owed to any other core.
-/
import proofs.«173766_g76295799046852_cont_9to1_m_449_5_alg».proof.Proof.BitsBody

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shares -/

/-- The share of its array each window holds: a quarter of the weight array for each of the four windows on it, the
    whole array for every other window. -/
def shareOf : Fin 10 → PosShare TreeShare
  | ⟨0, _⟩ => fullShare
  | ⟨1, _⟩ => fullShare.left.left
  | ⟨2, _⟩ => fullShare.left.right
  | ⟨3, _⟩ => fullShare.right.left
  | ⟨4, _⟩ => fullShare.right.right
  | ⟨5, _⟩ => fullShare
  | ⟨6, _⟩ => fullShare
  | ⟨7, _⟩ => fullShare
  | ⟨8, _⟩ => fullShare
  | ⟨9, _⟩ => fullShare

/-! ## The proof data -/

/-- The proof data of the one pipeline on core `c`: the arrays as the region finds them; after the body at point `t`
    each input's buffer at its block and the output's at `outBuf` of the nine input blocks. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, _⟩ => outBuf (blockAt m c 0 t) (blockAt m c 1 t) (blockAt m c 2 t) (blockAt m c 3 t) (blockAt m c 4 t) (blockAt m c 5 t) (blockAt m c 6 t) (blockAt m c 7 t) (blockAt m c 8 t)
  Φ _ := Pipeline.scopedRest (Ix := Unit) (Name := ℕ) (U := UR sig nD τ) (Lvl := ℕ) (Val := Elt F) spec0 c
  q := shareOf
  owed _ := 0

/-- The proof data's arrays are the region-entry contents. -/
theorem dats_A (c : Dev nD) (w : Fin cfg0.W) : (dats m 0 c).A w = entry m c (Pipeline.arrRef spec0 w) := by
  dsimp only [dats]

/-- What the body leaves, window by window. -/
theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t = blockAt m c 5 t := by dsimp only [dats]
theorem after_6 (c : Dev nD) (t : Fin cfg0.N) : (dats m 0 c).after 6 t = blockAt m c 6 t := by dsimp only [dats]
theorem after_7 (c : Dev nD) (t : Fin cfg0.N) : (dats m 0 c).after 7 t = blockAt m c 7 t := by dsimp only [dats]
theorem after_8 (c : Dev nD) (t : Fin cfg0.N) : (dats m 0 c).after 8 t = blockAt m c 8 t := by dsimp only [dats]
theorem after_9 (c : Dev nD) (t : Fin cfg0.N) :
    (dats m 0 c).after 9 t = outBuf (blockAt m c 0 t) (blockAt m c 1 t) (blockAt m c 2 t) (blockAt m c 3 t) (blockAt m c 4 t) (blockAt m c 5 t) (blockAt m c 6 t) (blockAt m c 7 t) (blockAt m c 8 t) := by dsimp only [dats]

/-- Each input's current staging buffer holds its block at every point. -/
theorem staged_0 (c : Dev nD) (t : Fin cfg0.N) (d) : (dats m 0 c).before 0 t d = blockAt m c 0 t :=
  staged_0_of m (dats m 0 c) (dats_A m c 0) (after_0 m c) t d
theorem staged_1 (c : Dev nD) (t : Fin cfg0.N) (d) : (dats m 0 c).before 1 t d = blockAt m c 1 t :=
  staged_1_of m (dats m 0 c) (dats_A m c 1) (after_1 m c) t d
theorem staged_2 (c : Dev nD) (t : Fin cfg0.N) (d) : (dats m 0 c).before 2 t d = blockAt m c 2 t :=
  staged_2_of m (dats m 0 c) (dats_A m c 2) (after_2 m c) t d
theorem staged_3 (c : Dev nD) (t : Fin cfg0.N) (d) : (dats m 0 c).before 3 t d = blockAt m c 3 t :=
  staged_3_of m (dats m 0 c) (dats_A m c 3) (after_3 m c) t d
theorem staged_4 (c : Dev nD) (t : Fin cfg0.N) (d) : (dats m 0 c).before 4 t d = blockAt m c 4 t :=
  staged_4_of m (dats m 0 c) (dats_A m c 4) (after_4 m c) t d
theorem staged_5 (c : Dev nD) (t : Fin cfg0.N) (d) : (dats m 0 c).before 5 t d = blockAt m c 5 t :=
  staged_5_of m (dats m 0 c) (dats_A m c 5) (after_5 m c) t d
theorem staged_6 (c : Dev nD) (t : Fin cfg0.N) (d) : (dats m 0 c).before 6 t d = blockAt m c 6 t :=
  staged_6_of m (dats m 0 c) (dats_A m c 6) (after_6 m c) t d
theorem staged_7 (c : Dev nD) (t : Fin cfg0.N) (d) : (dats m 0 c).before 7 t d = blockAt m c 7 t :=
  staged_7_of m (dats m 0 c) (dats_A m c 7) (after_7 m c) t d
theorem staged_8 (c : Dev nD) (t : Fin cfg0.N) (d) : (dats m 0 c).before 8 t d = blockAt m c 8 t :=
  staged_8_of m (dats m 0 c) (dats_A m c 8) (after_8 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1000000 in
/-- The body at any point: the inputs' buffers hold their blocks, so the body's triple applies; the invariant and the
    core's debts pass through unread. -/
theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [staged_0, staged_1, staged_2, staged_3, staged_4, staged_5, staged_6, staged_7, staged_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_triple c Set.univ _ _ _ _ _ _ _ _ _ _ _ _ _ _ _ _ _ _ _ _ _
    (blockAt m c 0 t) (blockAt m c 1 t) (blockAt m c 2 t) (blockAt m c 3 t) (blockAt m c 4 t) (blockAt m c 5 t) (blockAt m c 6 t) (blockAt m c 7 t) (blockAt m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact body_at_point m c t

end Cert.Kernel.Frame

end
-- ==== Proof.BitsRun.lean ====
/-
  The launch: the whole program's run, its frame, and its result.

  The region is entered holding every unscoped buffer whole. The buffers behind the windows' arrays are dealt to the
  ten windows: the weight array, read by four windows, is split into its four quarter shares, one per window; every
  other array goes whole to its one window. The mask itself (read only by the four conversions before the region) is
  no window's array and bypasses the region. The pipeline library then runs the eight grid points, each by the body
  obligation, and hands back every array at what the write-backs leave: an input array as it was, the output array
  at the fold of the eight flushed blocks.
-/
import proofs.«173766_g76295799046852_cont_9to1_m_449_5_alg».proof.Proof.BitsData

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at entry, dealt among the windows -/

/-- Each window's share as the proof data states it: an input's own, the output's the whole. -/
theorem dats_share (c : Dev nD) (w : Fin cfg0.W) : (dats m 0 c).share w = shareOf w := by
  fin_cases w <;> rfl

/-- The pipeline's arrays at entry, window by window, as points-tos of the buffers behind them. -/
theorem arrays_entry_eq (c : Dev nD) :
    (dats m 0 c).arrays ((dats m 0 c).arrAt · 0)
      = bigSep Finset.univ fun w : Fin cfg0.W =>
          (((c : Thread nD τ).loc (Pipeline.arrRef spec0 w)) ↦{shareOf w} entry m c (Pipeline.arrRef spec0 w) : sProp 𝕄) := by
  unfold Dat.arrays
  exact bigSep_congr fun w _ => by rw [(arr_whole0 w).set_eq_univ, dats_share]; rfl

/-- The seven distinct buffers behind the ten windows' arrays, each held whole, make the pipeline's arrays at entry:
    the weight array's full share is halved twice, a quarter to each of its four windows. -/
theorem arrays_at_entry (c : Dev nD) :
    (Pipeline.arrBufs (Ix := Unit) (Name := ℕ) (U := UR sig nD τ) (Lvl := ℕ) spec0 c (entry m c) : sProp 𝕄)
      ⊢ (dats m 0 c).arrays ((dats m 0 c).arrAt · 0) := by
  have hbufs : (Pipeline.arrBufs (Ix := Unit) (Name := ℕ) (U := UR sig nD τ) (Lvl := ℕ) spec0 c (entry m c) : sProp 𝕄)
      = iprop((((c : Thread nD τ).loc main_arg0) ↦{fullShare} entry m c main_arg0)
          ∗ (((c : Thread nD τ).loc main_arg1) ↦{fullShare} entry m c main_arg1)
          ∗ (((c : Thread nD τ).loc main_v0) ↦{fullShare} entry m c main_v0)
          ∗ (((c : Thread nD τ).loc main_v1) ↦{fullShare} entry m c main_v1)
          ∗ (((c : Thread nD τ).loc main_v2) ↦{fullShare} entry m c main_v2)
          ∗ (((c : Thread nD τ).loc main_v3) ↦{fullShare} entry m c main_v3)
          ∗ (((c : Thread nD τ).loc main_v4) ↦{fullShare} entry m c main_v4)) :=
    bigSep_eq_bigSepL_of_eq [main_arg0, main_arg1, main_v0, main_v1, main_v2, main_v3, main_v4] (by decide) (by decide) _
  rw [arrays_entry_eq, bigSep_W0, hbufs]
  iintro ⟨Hx, Hw, Hk0, Hk1, Hk2, Hk3, Ho⟩
  ihave Hw' := (pointsTo_share (PosShare.mem_left_op_right fullShare)).1 $$ Hw
  icases Hw' with ⟨Hl, Hr⟩
  ihave Hl' := (pointsTo_share (PosShare.mem_left_op_right fullShare.left)).1 $$ Hl
  icases Hl' with ⟨Hll, Hlr⟩
  ihave Hr' := (pointsTo_share (PosShare.mem_left_op_right fullShare.right)).1 $$ Hr
  icases Hr' with ⟨Hrl, Hrr⟩
  isplitl [Hx]; · iexact Hx
  isplitl [Hll]; · iexact Hll
  isplitl [Hlr]; · iexact Hlr
  isplitl [Hrl]; · iexact Hrl
  isplitl [Hrr]; · iexact Hrr
  isplitl [Hk0]; · iexact Hk0
  isplitl [Hk1]; · iexact Hk1
  isplitl [Hk2]; · iexact Hk2
  isplitl [Hk3]; · iexact Hk3
  iexact Ho

/-! ## The run -/

/-- What every final state satisfies: each window's array at what the library computes from the proof data, every
    unscoped buffer that is no window's array as the region found it. -/
abbrev RunPost (r : PUnit × MemSt nD τ sig (Elt F)) : Prop :=
  ∀ c : Dev nD,
    (∀ w, r.2.mem ((spec0 w).arr.view.loc (c : Thread nD τ)) = (dats m 0 c).arrAt w cfg0.N)
    ∧ ∀ b ∈ Pipeline.restRefs sig spec0, r.2.mem ((c : Thread nD τ).loc b) = entry m c b

set_option backward.isDefEq.respectTransparency.types false in
/-- At the compiled mesh, for any values, from any memory with zero counters: every weakly fair execution of @main on
    the TensorCores terminates, nothing faulting, in a state satisfying `RunPost`. -/
theorem run_main : θ_run defs (onTc (τ := τ) (main (F := F))) ⟨m, fun _ => 0, ρ⟩ (RunPost m) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj))
    (hu₀ := .rfl)
    (V := entry m) (hmain := main_to_region m Variants.none)
    (hsplit := arrays_at_entry m)
    (X := fun _ => iprop(emp)) (Y := fun _ => iprop(emp))
    (Z := fun c => Pipeline.unscopedRest (Ix := Unit) (Name := ℕ) (U := UR sig nD τ) (Lvl := ℕ) spec0 c (entry m c))
    (hX := fun c => by
      iintro H
      isplitr; · iempintro
      iexact H)
    (hin := fun c => by
      rw [show (dats m 0 c).Φ 0 = Pipeline.scopedRest (Ix := Unit) (Name := ℕ) (U := UR sig nD τ) (Lvl := ℕ) (Val := Elt F) spec0 c from rfl]
      iintro ⟨-, H⟩
      iexact H)
    (hout := fun c => by
      rw [show (dats m 0 c).Φ (Fin.last _) = Pipeline.scopedRest (Ix := Unit) (Name := ℕ) (U := UR sig nD τ) (Lvl := ℕ) (Val := Elt F) spec0 c from rfl]
      iintro H
      isplitr; · iempintro
      iexact H)
    (QY := fun c s => ∀ b ∈ Pipeline.restRefs sig spec0, s.mem ((c : Thread nD τ).loc b) = entry m c b)
    (hY := fun c s' => by
      iintro ⟨-, HU, HSI⟩
      unfold Pipeline.unscopedRest
      imodintro
      iapply (pointsTo_read_all (Pipeline.restRefs sig spec0) (fun b => (c : Thread nD τ).loc b) (entry m c) s')
      isplitl [HU] <;> iassumption)
    (hQ := fun s h => h)

/-- info: 'Cert.Kernel.Frame.run_main' depends on axioms: [propext, Classical.choice, Quot.sound] -/
#guard_msgs in #print axioms run_main

/-! ## The frame, and the run with its result named -/

/-- The mask is no window's array (the windows read its word copies), so it bypasses the region. -/
theorem main_arg2_bypasses : main_arg2 ∈ Pipeline.restRefs sig spec0 := by decide

/-- The three argument arrays end as launched: the activations and the weights are inputs of the pipeline (an input's
    array is never written), the mask bypasses the region, and the conversions before the region write none of them. -/
theorem args_kept (r : PUnit × MemSt nD τ sig (Elt F)) (h : RunPost m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  ⟨((h c).1 0).trans (((dats m 0 c).arrAt_in 0 rfl _).trans ((dats_A m c 0).trans (entry_main_arg0 m c))),
   ((h c).1 1).trans (((dats m 0 c).arrAt_in 1 rfl _).trans ((dats_A m c 1).trans (entry_main_arg1 m c))),
   ((h c).2 main_arg2 main_arg2_bypasses).trans (entry_main_arg2 m c)⟩

/-- THE FRAME: every weakly fair execution terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => args_kept m r h c) (run_main m ρ)

/-- The same run with the result array named: it ends at the fold of the eight write-backs of the output window. -/
theorem run_result : θ_run defs (onTc (τ := τ) (main (F := F))) ⟨m, fun _ => 0, ρ⟩ (fun r => ∀ c : Dev nD,
      r.2.mem ((c.tc : Thread nD τ).loc main_v4) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1 9, args_kept m r h c⟩) (run_main m ρ)

end Cert.Kernel.Frame

end
-- ==== Proof.IdealEntry.lean ====
/-
  The kernel program up to its one region, and what the region finds.

  @main first widens the mask from one bit to a 32-bit word four times (one copy per stream of the mask), then
  launches the kernel. `entry` is the contents of the core's buffers when the region is entered: the launch
  contents after those four conversions. The three argument arrays are untouched by them. A window's block at a
  grid point is the rectangle of its array that the point's index map selects; an input window's current staging
  buffer holds exactly that block whenever the body runs, whether the point fetched it or the index had not moved.
-/
import proofs.«173766_g76295799046852_cont_9to1_m_449_5_alg».proof.Proof.Gen.KernelIdeal.Launch
import proofs.«173766_g76295799046852_cont_9to1_m_449_5_alg».proof.Proof.Gen.KernelIdeal.Skeleton
import proofs.«173766_g76295799046852_cont_9to1_m_449_5_alg».proof.Proof.Gen.KernelIdeal.Points
import Idealize.ShloMosaic.Lib.Pipeline.FrameBody
import Idealize.ShloMosaic.Lib.StableHlo.Run
import Idealize.ShloMosaic.Lib.Ring
import Idealize.ShloMosaic.Lib.Tactic

set_option maxRecDepth 16384

noncomputable section

namespace Cert.KernelIdeal.Frame

open Cert.KernelIdeal Cert.KernelIdeal.Gen Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the four mask conversions. -/
abbrev entry (c : Dev nD) (b : Ref sig .tc) : Buf (Elt F) ((c : Thread nD τ).loc b) :=
  StableHlo.after hostOps0 (fun b => m (c, b)) b

/-- None of the four conversions allocates a buffer. -/
theorem hostOps0_fresh : (hostOps0 : List (HloOp τ sig (Elt F))).Forall fun op => op.fresh = ∅ := by
  simp only [List.Forall]; repeat' constructor

/-- @main is the four conversions and then the region: holding the unscoped buffers at the launch contents it
    reduces to the region holding them at `entry`. -/
theorem main_to_region (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh fun c => (main_chain c).trans rfl

/-- The conversions write the four word copies of the mask and nothing else: each argument is as launched. -/
theorem entry_main_arg0 (c : Dev nD) : entry m c main_arg0 = m ((c : Thread nD τ).loc main_arg0) := by
  dsimp only [entry, hostOps0]; after_results
theorem entry_main_arg1 (c : Dev nD) : entry m c main_arg1 = m ((c : Thread nD τ).loc main_arg1) := by
  dsimp only [entry, hostOps0]; after_results
theorem entry_main_arg2 (c : Dev nD) : entry m c main_arg2 = m ((c : Thread nD τ).loc main_arg2) := by
  dsimp only [entry, hostOps0]; after_results

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-! Each input window's current staging buffer holds its block at every point, for any proof data whose array is the
    entry contents and whose body leaves the block in place: a point that fetches the window fills the buffer with the
    block, and a point that does not has the same block index as the one before. -/

theorem staged_0_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem staged_1_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem staged_2_of {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem staged_3_of {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem staged_4_of {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem staged_5_of {c : Dev nD} (dat : Dat τ (Elt F) Unit ℕ (UR sig nD τ) ℕ cfg0 c) (hA : dat.A 5 = entry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
theorem staged_6_of {c : Dev nD} (dat : Dat τ (Elt F) Unit ℕ (UR sig nD τ) ℕ cfg0 c) (hA : dat.A 6 = entry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)
theorem staged_7_of {c : Dev nD} (dat : Dat τ (Elt F) Unit ℕ (UR sig nD τ) ℕ cfg0 c) (hA : dat.A 7 = entry m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)
theorem staged_8_of {c : Dev nD} (dat : Dat τ (Elt F) Unit ℕ (UR sig nD τ) ℕ cfg0 c) (hA : dat.A 8 = entry m c (Pipeline.arrRef spec0 8))
    (hafter : ∀ t, dat.after 8 t = blockAt m c 8 t) (t : Fin cfg0.N) (d) : dat.before 8 t d = blockAt m c 8 t :=
  (dat.before_in_eq_fetched 8 rfl (fun _ => rfl) (fun _ _ _ => rfl) (fun t => by rw [hafter]; unfold Dat.blockOf blockAt; rw [hA]; try rfl) t d).trans
    (by unfold Dat.fetched Dat.blockOf blockAt; rw [hA]; try rfl)

end Cert.KernelIdeal.Frame

end
-- ==== Proof.IdealBody.lean ====
/-
  The kernel body at one grid point.

  The body reads the activations' block (64 × 4096) once and, for each of the four streams r = 0..3, reads 128 rows
  of the weights and the same 128 rows of the mask, multiplies them entry by entry, contracts the activations
  against the product, and stores the 64 × 128 result into columns [128 r, 128 r + 128) of the 64 × 512 output
  buffer. The four column slices tile the buffer, so after the body the buffer holds, slice by slice, the four
  products — whatever it held before. The inputs' buffers are left as they were.
-/
import proofs.«173766_g76295799046852_cont_9to1_m_449_5_alg».proof.Proof.IdealEntry

set_option maxRecDepth 16384

noncomputable section

namespace Cert.KernelIdeal.Frame

open Cert.KernelIdeal Cert.KernelIdeal.Gen Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes -/

/-- The whole activations' block, and a whole block of 128 rows (of the weights, of the mask). -/
abbrev rAct : Rect S64x4096 := Rect.unit (s := S64x4096) ![0, 0] S64x4096.size Gen.inb_S64x4096_S64x4096_0_0
abbrev rRows : Rect S128x4096 := Rect.unit (s := S128x4096) ![0, 0] S128x4096.size Gen.inb_S128x4096_S128x4096_0_0
/-- The four column slices of the output buffer, 128 columns each. -/
abbrev rCol0 : Rect S64x512 := Rect.unit (s := S64x512) ![0, 0] S64x128.size Gen.inb_S64x512_S64x128_0_0
abbrev rCol1 : Rect S64x512 := Rect.unit (s := S64x512) ![0, 128] S64x128.size Gen.inb_S64x512_S64x128_0_128
abbrev rCol2 : Rect S64x512 := Rect.unit (s := S64x512) ![0, 256] S64x128.size Gen.inb_S64x512_S64x128_0_256
abbrev rCol3 : Rect S64x512 := Rect.unit (s := S64x512) ![0, 384] S64x128.size Gen.inb_S64x512_S64x128_0_384

/-! ## What the body leaves in the output buffer -/

/-- The output buffer after the body, from the nine input blocks: its four stores as pieces, the last store first.
    Slice r holds the activations contracted against rows of stream r's masked weights. -/
def outBuf (x : Vec F S64x4096 .f32) (w0 w1 w2 w3 : Vec F S128x4096 .f32) (k0 k1 k2 k3 : Vec F S128x4096 .i32) : Vec F S64x512 .f32 :=
  View.canon [⟨rCol3, k0_pay1 (View.ld x rAct) (View.ld w3 rRows) (View.ld k3 rRows)⟩,
    ⟨rCol2, k0_pay4 (View.ld x rAct) (View.ld w2 rRows) (View.ld k2 rRows)⟩,
    ⟨rCol1, k0_pay3 (View.ld x rAct) (View.ld w1 rRows) (View.ld k1 rRows)⟩,
    ⟨rCol0, k0_pay2 (View.ld x rAct) (View.ld w0 rRows) (View.ld k0 rRows)⟩]

/-- The four slices tile the buffer, so every entry lies in one of them. -/
theorem outBuf_cover (p3 p2 p1 p0 : Vec F S64x128 .f32) (y : S64x512.Idx) :
    ∃ pc ∈ ([⟨rCol3, p3⟩, ⟨rCol2, p2⟩, ⟨rCol1, p1⟩, ⟨rCol0, p0⟩] : List (View.Piece (Elt F) S64x512 .f32)), y ∈ pc.1.set :=
  View.cover_of_tiled [⟨rCol3, p3⟩, ⟨rCol2, p2⟩, ⟨rCol1, p1⟩, ⟨rCol0, p0⟩] S64x128.size (by rfl) y

/-! ## The body's triple -/

set_option maxHeartbeats 4000000 in
/-- The body on whole staging memrefs — the nine inputs' at read contents, the output's at anything — runs to the
    continuation holding the inputs' as they were and the output's at `outBuf` of the inputs'. -/
theorem body_triple (c : Dev nD) (E : Set ℕ) (i : grid0.Coords)
    (a1 : Memref sig .tc .vmem S64x4096 .f32) (h1 : a1.IsWhole)
    (a2 : Memref sig .tc .vmem S128x4096 .f32) (h2 : a2.IsWhole) (a3 : Memref sig .tc .vmem S128x4096 .f32) (h3 : a3.IsWhole)
    (a4 : Memref sig .tc .vmem S128x4096 .f32) (h4 : a4.IsWhole) (a5 : Memref sig .tc .vmem S128x4096 .f32) (h5 : a5.IsWhole)
    (a6 : Memref sig .tc .vmem S128x4096 .i32) (h6 : a6.IsWhole) (a7 : Memref sig .tc .vmem S128x4096 .i32) (h7 : a7.IsWhole)
    (a8 : Memref sig .tc .vmem S128x4096 .i32) (h8 : a8.IsWhole) (a9 : Memref sig .tc .vmem S128x4096 .i32) (h9 : a9.IsWhole)
    (a10 : Memref sig .tc .vmem S64x512 .f32) (h10 : a10.IsWhole)
    (x : Vec F S64x4096 .f32) (w0 w1 w2 w3 : Vec F S128x4096 .f32) (k0 k1 k2 k3 : Vec F S128x4096 .i32) (K : PUnit → sProp 𝕄) :
    iprop(owns (c : Thread nD τ) a1 fullShare x
        ∗ owns (c : Thread nD τ) a2 fullShare w0 ∗ owns (c : Thread nD τ) a3 fullShare w1
        ∗ owns (c : Thread nD τ) a4 fullShare w2 ∗ owns (c : Thread nD τ) a5 fullShare w3
        ∗ owns (c : Thread nD τ) a6 fullShare k0 ∗ owns (c : Thread nD τ) a7 fullShare k1
        ∗ owns (c : Thread nD τ) a8 fullShare k2 ∗ owns (c : Thread nD τ) a9 fullShare k3
        ∗ (∃ d, owns (c : Thread nD τ) a10 fullShare d)
        ∗ (iprop(owns (c : Thread nD τ) a1 fullShare x
            ∗ owns (c : Thread nD τ) a2 fullShare w0 ∗ owns (c : Thread nD τ) a3 fullShare w1
            ∗ owns (c : Thread nD τ) a4 fullShare w2 ∗ owns (c : Thread nD τ) a5 fullShare w3
            ∗ owns (c : Thread nD τ) a6 fullShare k0 ∗ owns (c : Thread nD τ) a7 fullShare k1
            ∗ owns (c : Thread nD τ) a8 fullShare k2 ∗ owns (c : Thread nD τ) a9 fullShare k3
            ∗ owns (c : Thread nD τ) a10 fullShare (outBuf x w0 w1 w2 w3 k0 k1 k2 k3)) -∗ K ⟨⟩))
      ⊢ wp frame (wpE (defs₀ (F := F)) Variants.none c none) E
          (cc0__mm_body i a1 h1 a2 h2 a3 h3 a4 h4 a5 h5 a6 h6 a7 h7 a8 h8 a9 h9 a10 h10) K := by
  simp only [cc0__mm_body_eq_skeleton]; unfold cc0__mm_body_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩,
    ⟨%f8, %e8, H8⟩, ⟨%f9, %e9, H9⟩, ⟨%d10, %f10, -, H10⟩, Hk⟩
  subst e1 e2 e3 e4 e5 e6 e7 e8 e9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (outBuf_cover _ _ _ _)

end Cert.KernelIdeal.Frame

end
-- ==== Proof.IdealData.lean ====
/-
  The pipeline's proof data and the body obligation.

  Ten windows: the activations (window 0), four windows on the ONE weight array (1–4, each selecting its own 128
  rows per point), four windows on the four word copies of the mask (5–8), and the output (9). Since the four weight
  windows read one array, the array's full share is dealt among them in quarters; every other window holds its array
  whole. After the body at a point each input's buffer holds its block, unchanged, and the output's buffer holds the
  four products slice by slice. The region's invariant is only what the body may use and need not describe (the
  core's scoped buffers that are no staging buffer — here there is none); nothing is owed to any other core.
-/
import proofs.«173766_g76295799046852_cont_9to1_m_449_5_alg».proof.Proof.IdealBody

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shares -/

/-- The share of its array each window holds: a quarter of the weight array for each of the four windows on it, the
    whole array for every other window. -/
def shareOf : Fin 10 → PosShare TreeShare
  | ⟨0, _⟩ => fullShare
  | ⟨1, _⟩ => fullShare.left.left
  | ⟨2, _⟩ => fullShare.left.right
  | ⟨3, _⟩ => fullShare.right.left
  | ⟨4, _⟩ => fullShare.right.right
  | ⟨5, _⟩ => fullShare
  | ⟨6, _⟩ => fullShare
  | ⟨7, _⟩ => fullShare
  | ⟨8, _⟩ => fullShare
  | ⟨9, _⟩ => fullShare

/-! ## The proof data -/

/-- The proof data of the one pipeline on core `c`: the arrays as the region finds them; after the body at point `t`
    each input's buffer at its block and the output's at `outBuf` of the nine input blocks. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, _⟩ => outBuf (blockAt m c 0 t) (blockAt m c 1 t) (blockAt m c 2 t) (blockAt m c 3 t) (blockAt m c 4 t) (blockAt m c 5 t) (blockAt m c 6 t) (blockAt m c 7 t) (blockAt m c 8 t)
  Φ _ := Pipeline.scopedRest (Ix := Unit) (Name := ℕ) (U := UR sig nD τ) (Lvl := ℕ) (Val := Elt F) spec0 c
  q := shareOf
  owed _ := 0

/-- The proof data's arrays are the region-entry contents. -/
theorem dats_A (c : Dev nD) (w : Fin cfg0.W) : (dats m 0 c).A w = entry m c (Pipeline.arrRef spec0 w) := by
  dsimp only [dats]

/-- What the body leaves, window by window. -/
theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t = blockAt m c 5 t := by dsimp only [dats]
theorem after_6 (c : Dev nD) (t : Fin cfg0.N) : (dats m 0 c).after 6 t = blockAt m c 6 t := by dsimp only [dats]
theorem after_7 (c : Dev nD) (t : Fin cfg0.N) : (dats m 0 c).after 7 t = blockAt m c 7 t := by dsimp only [dats]
theorem after_8 (c : Dev nD) (t : Fin cfg0.N) : (dats m 0 c).after 8 t = blockAt m c 8 t := by dsimp only [dats]
theorem after_9 (c : Dev nD) (t : Fin cfg0.N) :
    (dats m 0 c).after 9 t = outBuf (blockAt m c 0 t) (blockAt m c 1 t) (blockAt m c 2 t) (blockAt m c 3 t) (blockAt m c 4 t) (blockAt m c 5 t) (blockAt m c 6 t) (blockAt m c 7 t) (blockAt m c 8 t) := by dsimp only [dats]

/-- Each input's current staging buffer holds its block at every point. -/
theorem staged_0 (c : Dev nD) (t : Fin cfg0.N) (d) : (dats m 0 c).before 0 t d = blockAt m c 0 t :=
  staged_0_of m (dats m 0 c) (dats_A m c 0) (after_0 m c) t d
theorem staged_1 (c : Dev nD) (t : Fin cfg0.N) (d) : (dats m 0 c).before 1 t d = blockAt m c 1 t :=
  staged_1_of m (dats m 0 c) (dats_A m c 1) (after_1 m c) t d
theorem staged_2 (c : Dev nD) (t : Fin cfg0.N) (d) : (dats m 0 c).before 2 t d = blockAt m c 2 t :=
  staged_2_of m (dats m 0 c) (dats_A m c 2) (after_2 m c) t d
theorem staged_3 (c : Dev nD) (t : Fin cfg0.N) (d) : (dats m 0 c).before 3 t d = blockAt m c 3 t :=
  staged_3_of m (dats m 0 c) (dats_A m c 3) (after_3 m c) t d
theorem staged_4 (c : Dev nD) (t : Fin cfg0.N) (d) : (dats m 0 c).before 4 t d = blockAt m c 4 t :=
  staged_4_of m (dats m 0 c) (dats_A m c 4) (after_4 m c) t d
theorem staged_5 (c : Dev nD) (t : Fin cfg0.N) (d) : (dats m 0 c).before 5 t d = blockAt m c 5 t :=
  staged_5_of m (dats m 0 c) (dats_A m c 5) (after_5 m c) t d
theorem staged_6 (c : Dev nD) (t : Fin cfg0.N) (d) : (dats m 0 c).before 6 t d = blockAt m c 6 t :=
  staged_6_of m (dats m 0 c) (dats_A m c 6) (after_6 m c) t d
theorem staged_7 (c : Dev nD) (t : Fin cfg0.N) (d) : (dats m 0 c).before 7 t d = blockAt m c 7 t :=
  staged_7_of m (dats m 0 c) (dats_A m c 7) (after_7 m c) t d
theorem staged_8 (c : Dev nD) (t : Fin cfg0.N) (d) : (dats m 0 c).before 8 t d = blockAt m c 8 t :=
  staged_8_of m (dats m 0 c) (dats_A m c 8) (after_8 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1000000 in
/-- The body at any point: the inputs' buffers hold their blocks, so the body's triple applies; the invariant and the
    core's debts pass through unread. -/
theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [staged_0, staged_1, staged_2, staged_3, staged_4, staged_5, staged_6, staged_7, staged_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_triple c Set.univ _ _ _ _ _ _ _ _ _ _ _ _ _ _ _ _ _ _ _ _ _
    (blockAt m c 0 t) (blockAt m c 1 t) (blockAt m c 2 t) (blockAt m c 3 t) (blockAt m c 4 t) (blockAt m c 5 t) (blockAt m c 6 t) (blockAt m c 7 t) (blockAt m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact body_at_point m c t

end Cert.KernelIdeal.Frame

end
-- ==== Proof.IdealRun.lean ====
/-
  The launch: the whole program's run, its frame, and its result.

  The region is entered holding every unscoped buffer whole. The buffers behind the windows' arrays are dealt to the
  ten windows: the weight array, read by four windows, is split into its four quarter shares, one per window; every
  other array goes whole to its one window. The mask itself (read only by the four conversions before the region) is
  no window's array and bypasses the region. The pipeline library then runs the eight grid points, each by the body
  obligation, and hands back every array at what the write-backs leave: an input array as it was, the output array
  at the fold of the eight flushed blocks.
-/
import proofs.«173766_g76295799046852_cont_9to1_m_449_5_alg».proof.Proof.IdealData

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at entry, dealt among the windows -/

/-- Each window's share as the proof data states it: an input's own, the output's the whole. -/
theorem dats_share (c : Dev nD) (w : Fin cfg0.W) : (dats m 0 c).share w = shareOf w := by
  fin_cases w <;> rfl

/-- The pipeline's arrays at entry, window by window, as points-tos of the buffers behind them. -/
theorem arrays_entry_eq (c : Dev nD) :
    (dats m 0 c).arrays ((dats m 0 c).arrAt · 0)
      = bigSep Finset.univ fun w : Fin cfg0.W =>
          (((c : Thread nD τ).loc (Pipeline.arrRef spec0 w)) ↦{shareOf w} entry m c (Pipeline.arrRef spec0 w) : sProp 𝕄) := by
  unfold Dat.arrays
  exact bigSep_congr fun w _ => by rw [(arr_whole0 w).set_eq_univ, dats_share]; rfl

/-- The seven distinct buffers behind the ten windows' arrays, each held whole, make the pipeline's arrays at entry:
    the weight array's full share is halved twice, a quarter to each of its four windows. -/
theorem arrays_at_entry (c : Dev nD) :
    (Pipeline.arrBufs (Ix := Unit) (Name := ℕ) (U := UR sig nD τ) (Lvl := ℕ) spec0 c (entry m c) : sProp 𝕄)
      ⊢ (dats m 0 c).arrays ((dats m 0 c).arrAt · 0) := by
  have hbufs : (Pipeline.arrBufs (Ix := Unit) (Name := ℕ) (U := UR sig nD τ) (Lvl := ℕ) spec0 c (entry m c) : sProp 𝕄)
      = iprop((((c : Thread nD τ).loc main_arg0) ↦{fullShare} entry m c main_arg0)
          ∗ (((c : Thread nD τ).loc main_arg1) ↦{fullShare} entry m c main_arg1)
          ∗ (((c : Thread nD τ).loc main_v0) ↦{fullShare} entry m c main_v0)
          ∗ (((c : Thread nD τ).loc main_v1) ↦{fullShare} entry m c main_v1)
          ∗ (((c : Thread nD τ).loc main_v2) ↦{fullShare} entry m c main_v2)
          ∗ (((c : Thread nD τ).loc main_v3) ↦{fullShare} entry m c main_v3)
          ∗ (((c : Thread nD τ).loc main_v4) ↦{fullShare} entry m c main_v4)) :=
    bigSep_eq_bigSepL_of_eq [main_arg0, main_arg1, main_v0, main_v1, main_v2, main_v3, main_v4] (by decide) (by decide) _
  rw [arrays_entry_eq, bigSep_W0, hbufs]
  iintro ⟨Hx, Hw, Hk0, Hk1, Hk2, Hk3, Ho⟩
  ihave Hw' := (pointsTo_share (PosShare.mem_left_op_right fullShare)).1 $$ Hw
  icases Hw' with ⟨Hl, Hr⟩
  ihave Hl' := (pointsTo_share (PosShare.mem_left_op_right fullShare.left)).1 $$ Hl
  icases Hl' with ⟨Hll, Hlr⟩
  ihave Hr' := (pointsTo_share (PosShare.mem_left_op_right fullShare.right)).1 $$ Hr
  icases Hr' with ⟨Hrl, Hrr⟩
  isplitl [Hx]; · iexact Hx
  isplitl [Hll]; · iexact Hll
  isplitl [Hlr]; · iexact Hlr
  isplitl [Hrl]; · iexact Hrl
  isplitl [Hrr]; · iexact Hrr
  isplitl [Hk0]; · iexact Hk0
  isplitl [Hk1]; · iexact Hk1
  isplitl [Hk2]; · iexact Hk2
  isplitl [Hk3]; · iexact Hk3
  iexact Ho

/-! ## The run -/

/-- What every final state satisfies: each window's array at what the library computes from the proof data, every
    unscoped buffer that is no window's array as the region found it. -/
abbrev RunPost (r : PUnit × MemSt nD τ sig (Elt F)) : Prop :=
  ∀ c : Dev nD,
    (∀ w, r.2.mem ((spec0 w).arr.view.loc (c : Thread nD τ)) = (dats m 0 c).arrAt w cfg0.N)
    ∧ ∀ b ∈ Pipeline.restRefs sig spec0, r.2.mem ((c : Thread nD τ).loc b) = entry m c b

set_option backward.isDefEq.respectTransparency.types false in
/-- At the compiled mesh, for any values, from any memory with zero counters: every weakly fair execution of @main on
    the TensorCores terminates, nothing faulting, in a state satisfying `RunPost`. -/
theorem run_main : θ_run defs (onTc (τ := τ) (main (F := F))) ⟨m, fun _ => 0, ρ⟩ (RunPost m) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj))
    (hu₀ := .rfl)
    (V := entry m) (hmain := main_to_region m Variants.none)
    (hsplit := arrays_at_entry m)
    (X := fun _ => iprop(emp)) (Y := fun _ => iprop(emp))
    (Z := fun c => Pipeline.unscopedRest (Ix := Unit) (Name := ℕ) (U := UR sig nD τ) (Lvl := ℕ) spec0 c (entry m c))
    (hX := fun c => by
      iintro H
      isplitr; · iempintro
      iexact H)
    (hin := fun c => by
      rw [show (dats m 0 c).Φ 0 = Pipeline.scopedRest (Ix := Unit) (Name := ℕ) (U := UR sig nD τ) (Lvl := ℕ) (Val := Elt F) spec0 c from rfl]
      iintro ⟨-, H⟩
      iexact H)
    (hout := fun c => by
      rw [show (dats m 0 c).Φ (Fin.last _) = Pipeline.scopedRest (Ix := Unit) (Name := ℕ) (U := UR sig nD τ) (Lvl := ℕ) (Val := Elt F) spec0 c from rfl]
      iintro H
      isplitr; · iempintro
      iexact H)
    (QY := fun c s => ∀ b ∈ Pipeline.restRefs sig spec0, s.mem ((c : Thread nD τ).loc b) = entry m c b)
    (hY := fun c s' => by
      iintro ⟨-, HU, HSI⟩
      unfold Pipeline.unscopedRest
      imodintro
      iapply (pointsTo_read_all (Pipeline.restRefs sig spec0) (fun b => (c : Thread nD τ).loc b) (entry m c) s')
      isplitl [HU] <;> iassumption)
    (hQ := fun s h => h)

/-- info: 'Cert.KernelIdeal.Frame.run_main' depends on axioms: [propext, Classical.choice, Quot.sound] -/
#guard_msgs in #print axioms run_main

/-! ## The frame, and the run with its result named -/

/-- The mask is no window's array (the windows read its word copies), so it bypasses the region. -/
theorem main_arg2_bypasses : main_arg2 ∈ Pipeline.restRefs sig spec0 := by decide

/-- The three argument arrays end as launched: the activations and the weights are inputs of the pipeline (an input's
    array is never written), the mask bypasses the region, and the conversions before the region write none of them. -/
theorem args_kept (r : PUnit × MemSt nD τ sig (Elt F)) (h : RunPost m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  ⟨((h c).1 0).trans (((dats m 0 c).arrAt_in 0 rfl _).trans ((dats_A m c 0).trans (entry_main_arg0 m c))),
   ((h c).1 1).trans (((dats m 0 c).arrAt_in 1 rfl _).trans ((dats_A m c 1).trans (entry_main_arg1 m c))),
   ((h c).2 main_arg2 main_arg2_bypasses).trans (entry_main_arg2 m c)⟩

/-- THE FRAME: every weakly fair execution terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => args_kept m r h c) (run_main m ρ)

/-- The same run with the result array named: it ends at the fold of the eight write-backs of the output window. -/
theorem run_result : θ_run defs (onTc (τ := τ) (main (F := F))) ⟨m, fun _ => 0, ρ⟩ (fun r => ∀ c : Dev nD,
      r.2.mem ((c.tc : Thread nD τ).loc main_v4) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1 9, args_kept m r h c⟩) (run_main m ρ)

end Cert.KernelIdeal.Frame

end
-- ==== Proof.Spec.lean ====
/-
  The specification: a masked linear layer as ONE function of the argument arrays, entry by entry, over the
  extended reals.

    out[b, o] = ∑ k < 4096, x[b, k] · (w[o, k] · bit(mask[o, k]))

  where `bit` reads a one-bit mask entry as the real 0 or 1. Nothing here mentions a program: both the kernel's
  result and the reference's are shown equal to this function.
-/
import Idealize.ShloMosaic.PureOps.Ideal
import Idealize.ShloMosaic.Lib.ValueIdx

noncomputable section

open scoped BigOperators

namespace Cert.MaskedLinear

open Idealize.ShloMosaic Idealize.ShloMosaic.ValueIdx

/-- The activations' shape, [64, 4096], and the weights' (and the mask's), [4096, 4096]. -/
abbrev SX : Shape := ⟨2, ![64, 4096]⟩
abbrev SW : Shape := ⟨2, ![4096, 4096]⟩

/-- A mask bit as an extended real: 0 or 1. -/
def bit (b : BitVec 1) : EReal := ((b.toNat : ℝ) : EReal)

/-- One entry of the result: row `b` of the activations against row `o` of the masked weights. -/
def entry (x : SX.Idx → EReal) (w : SW.Idx → EReal) (mk : SW.Idx → BitVec 1) (b : Fin 64) (o : Fin 4096) : EReal :=
  ∑ k : Fin 4096, x (ix2 b k) * (w (ix2 o k) * bit (mk (ix2 o k)))

/-- The whole result, [64, 4096]. -/
def out (x : SX.Idx → EReal) (w : SW.Idx → EReal) (mk : SW.Idx → BitVec 1) : SX.Idx → EReal :=
  fun i => entry x w mk (i 0) (i 1)

theorem out_apply (x : SX.Idx → EReal) (w : SW.Idx → EReal) (mk : SW.Idx → BitVec 1) (b : Fin 64) (o : Fin 4096) :
    out x w mk (ix2 b o) = entry x w mk b o := rfl

/-- The two readings of a mask bit agree: widened to a 32-bit word, compared against zero, widened again and read as
    a signed integer, it is the bit read as a natural number. (Both are 0 for a clear bit and 1 for a set one.) -/
theorem word_bit (b : BitVec 1) :
    (((IntOp.cmpi .ne (b.setWidth 32) 0#32).setWidth 32).toInt : ℝ) = (b.toNat : ℝ) := by
  have h : ∀ b : BitVec 1, ((IntOp.cmpi .ne (b.setWidth 32) 0#32).setWidth 32).toInt = (b.toNat : Int) := by decide
  rw [h b]; simp

end Cert.MaskedLinear

end
-- ==== Proof.PayloadIdx.lean ====
/-
  The kernel's arithmetic, read at an index.

  Each of the kernel's four stores writes one [64, 128] panel of the result: the activations' block [64, 4096]
  multiplied against 128 rows of the masked weights, contracting the second axis of both operands,

    panel[p, q] = ∑ k < 4096, x[p, k] · (w[q, k] · m[q, k]),

  where the mask arrives as 32-bit words and  m[q, k]  is the word compared against zero (one bit), widened to a
  word and read as a signed integer: 0 for a zero word, 1 otherwise. Over the extended reals the product
  accumulates into the zero panel exactly, so the panel's entry is that sum and nothing else.
-/
import proofs.«173766_g76295799046852_cont_9to1_m_449_5_alg».proof.Proof.Gen.KernelIdeal.Skeleton
import proofs.«173766_g76295799046852_cont_9to1_m_449_5_alg».proof.Proof.Spec
import Idealize.ShloMosaic.Lib.ValueIdx
import Idealize.ShloMosaic.PureOps.Ideal.Laws

noncomputable section

open scoped BigOperators

namespace Cert.MaskedLinear

open Idealize.ShloMosaic Idealize.ShloMosaic.ValueIdx Cert.KernelIdeal Cert.KernelIdeal.Gen

/-! ## The product's operand indices

The product contracts axis 1 of both operands: at the result's entry (p, q) and contraction position k the left
operand is read at (p, k) and the right at (q, k). -/

/-- The left operand's row is the result's row … -/
theorem lhs_row (j : S64x128.Idx) (c : dot_S64x4096_S128x4096_S64x128_1_1_0_0_n_n.contr.Idx) :
    (dot_S64x4096_S128x4096_S64x128_1_1_0_0_n_n.lhsIdx j c 0).val = (j 0).val := by
  unfold DotDims.lhsIdx
  rw [dif_neg (show ¬(0 : Fin S64x4096.rank) ∈ dot_S64x4096_S128x4096_S64x128_1_1_0_0_n_n.lhsBatch by decide),
    dif_pos (show (0 : Fin S64x4096.rank) ∈ dot_S64x4096_S128x4096_S64x128_1_1_0_0_n_n.lhsNonContracting by decide)]
  rfl

/-- … and its column the contraction position. -/
theorem lhs_col (j : S64x128.Idx) (c : dot_S64x4096_S128x4096_S64x128_1_1_0_0_n_n.contr.Idx) :
    (dot_S64x4096_S128x4096_S64x128_1_1_0_0_n_n.lhsIdx j c 1).val = (c ⟨0, by decide⟩).val :=
  dot_S64x4096_S128x4096_S64x128_1_1_0_0_n_n.lhsIdx_val_of_single rfl j c

/-- The right operand's row is the result's column … -/
theorem rhs_row (j : S64x128.Idx) (c : dot_S64x4096_S128x4096_S64x128_1_1_0_0_n_n.contr.Idx) :
    (dot_S64x4096_S128x4096_S64x128_1_1_0_0_n_n.rhsIdx j c 0).val = (j 1).val := by
  unfold DotDims.rhsIdx
  rw [dif_neg (show ¬(0 : Fin S128x4096.rank) ∈ dot_S64x4096_S128x4096_S64x128_1_1_0_0_n_n.rhsBatch by decide),
    dif_pos (show (0 : Fin S128x4096.rank) ∈ dot_S64x4096_S128x4096_S64x128_1_1_0_0_n_n.rhsNonContracting by decide)]
  rfl

/-- … and its column the contraction position again. -/
theorem rhs_col (j : S64x128.Idx) (c : dot_S64x4096_S128x4096_S64x128_1_1_0_0_n_n.contr.Idx) :
    (dot_S64x4096_S128x4096_S64x128_1_1_0_0_n_n.rhsIdx j c 1).val = (c ⟨0, by decide⟩).val :=
  dot_S64x4096_S128x4096_S64x128_1_1_0_0_n_n.rhsIdx_val_of_single rfl j c

/-- The product into the zero panel, entry by entry: row p of the left operand against row q of the right. -/
theorem product_apply (a : FVec Ideal S64x4096 .f32) (y : FVec Ideal S128x4096 .f32) (p : Fin 64) (q : Fin 128) :
    matmul (F := Ideal) dot_S64x4096_S128x4096_S64x128_1_1_0_0_n_n none a y
        (constant (F := Ideal) S64x128 .f32 0x00000000#32) (ix2 p q)
      = ∑ k : Fin 4096, a (ix2 p k) * y (ix2 q k) := by
  refine (Ideal.matmul_constant_zero_apply dot_S64x4096_S128x4096_S64x128_1_1_0_0_n_n none a y (ix2 p q)).trans ?_
  rw [← Equiv.sum_comp (contrEquiv1 dot_S64x4096_S128x4096_S64x128_1_1_0_0_n_n 4096 rfl rfl).symm]
  refine Finset.sum_congr rfl fun k _ => ?_
  have hk := contrEquiv1_symm_val dot_S64x4096_S128x4096_S64x128_1_1_0_0_n_n 4096 rfl rfl k
  have el : dot_S64x4096_S128x4096_S64x128_1_1_0_0_n_n.lhsIdx (ix2 p q)
      ((contrEquiv1 dot_S64x4096_S128x4096_S64x128_1_1_0_0_n_n 4096 rfl rfl).symm k) = ix2 p k :=
    funext fun d => Fin.ext (by
      match d with
      | ⟨0, _⟩ => exact lhs_row _ _
      | ⟨1, _⟩ => exact (lhs_col _ _).trans hk)
  have er : dot_S64x4096_S128x4096_S64x128_1_1_0_0_n_n.rhsIdx (ix2 p q)
      ((contrEquiv1 dot_S64x4096_S128x4096_S64x128_1_1_0_0_n_n 4096 rfl rfl).symm k) = ix2 q k :=
    funext fun d => Fin.ext (by
      match d with
      | ⟨0, _⟩ => exact rhs_row _ _
      | ⟨1, _⟩ => exact (rhs_col _ _).trans hk)
  rw [el, er]

/-! ## The masked weights -/

/-- The right operand: the weights' rows times the mask words read as 0 or 1. -/
def maskedRows (v1 : Vec Ideal S128x4096 .f32) (v2 : Vec Ideal S128x4096 .i32) : FVec Ideal S128x4096 .f32 :=
  mulf v1 (sitofp .f32 (extui 32 (cmpi .ne v2 (constantI S128x4096 32 0#32)) natLt_1_32))

/-- Entry by entry: the weight times the word's truth value as a real. -/
theorem maskedRows_apply (v1 : Vec Ideal S128x4096 .f32) (v2 : Vec Ideal S128x4096 .i32) (i : S128x4096.Idx) :
    maskedRows v1 v2 i = v1 i * ((((IntOp.cmpi .ne (v2 i) 0#32).setWidth 32).toInt : ℝ) : EReal) := rfl

/-- A panel: the product of the activations' block and the masked rows, into the zero panel. -/
def panel (v0 : Vec Ideal S64x4096 .f32) (v1 : Vec Ideal S128x4096 .f32) (v2 : Vec Ideal S128x4096 .i32) :
    FVec Ideal S64x128 .f32 :=
  matmul (F := Ideal) (φ₁ := .f32) (φ₂ := .f32) dot_S64x4096_S128x4096_S64x128_1_1_0_0_n_n none v0 (maskedRows v1 v2)
    (constant (F := Ideal) S64x128 .f32 0x00000000#32)

/-- A panel's entry (p, q): row p of the activations against row q of the masked weights. -/
theorem panel_apply (v0 : Vec Ideal S64x4096 .f32) (v1 : Vec Ideal S128x4096 .f32) (v2 : Vec Ideal S128x4096 .i32)
    (p : Fin 64) (q : Fin 128) :
    panel v0 v1 v2 (ix2 p q)
      = ∑ k : Fin 4096, v0 (ix2 p k) * (v1 (ix2 q k) * ((((IntOp.cmpi .ne (v2 (ix2 q k)) 0#32).setWidth 32).toInt : ℝ) : EReal)) :=
  (product_apply v0 (maskedRows v1 v2) p q).trans
    (Finset.sum_congr rfl fun k _ => by rw [maskedRows_apply])

/-! ## The four stores' payloads are panels

Each payload is the same term up to the names of its bound values. -/

theorem pay1_eq (v0 : Vec Ideal S64x4096 .f32) (v1 : Vec Ideal S128x4096 .f32) (v2 : Vec Ideal S128x4096 .i32) :
    k0_pay1 (F := Ideal) v0 v1 v2 = panel v0 v1 v2 := rfl

theorem pay2_eq (v0 : Vec Ideal S64x4096 .f32) (v1 : Vec Ideal S128x4096 .f32) (v2 : Vec Ideal S128x4096 .i32) :
    k0_pay2 (F := Ideal) v0 v1 v2 = panel v0 v1 v2 := rfl

theorem pay3_eq (v0 : Vec Ideal S64x4096 .f32) (v1 : Vec Ideal S128x4096 .f32) (v2 : Vec Ideal S128x4096 .i32) :
    k0_pay3 (F := Ideal) v0 v1 v2 = panel v0 v1 v2 := rfl

theorem pay4_eq (v0 : Vec Ideal S64x4096 .f32) (v1 : Vec Ideal S128x4096 .f32) (v2 : Vec Ideal S128x4096 .i32) :
    k0_pay4 (F := Ideal) v0 v1 v2 = panel v0 v1 v2 := rfl

theorem pay1_apply (v0 : Vec Ideal S64x4096 .f32) (v1 : Vec Ideal S128x4096 .f32) (v2 : Vec Ideal S128x4096 .i32)
    (p : Fin 64) (q : Fin 128) :
    k0_pay1 (F := Ideal) v0 v1 v2 (ix2 p q)
      = ∑ k : Fin 4096, v0 (ix2 p k) * (v1 (ix2 q k) * ((((IntOp.cmpi .ne (v2 (ix2 q k)) 0#32).setWidth 32).toInt : ℝ) : EReal)) :=
  (congrFun (pay1_eq v0 v1 v2) (ix2 p q)).trans (panel_apply v0 v1 v2 p q)

theorem pay2_apply (v0 : Vec Ideal S64x4096 .f32) (v1 : Vec Ideal S128x4096 .f32) (v2 : Vec Ideal S128x4096 .i32)
    (p : Fin 64) (q : Fin 128) :
    k0_pay2 (F := Ideal) v0 v1 v2 (ix2 p q)
      = ∑ k : Fin 4096, v0 (ix2 p k) * (v1 (ix2 q k) * ((((IntOp.cmpi .ne (v2 (ix2 q k)) 0#32).setWidth 32).toInt : ℝ) : EReal)) :=
  (congrFun (pay2_eq v0 v1 v2) (ix2 p q)).trans (panel_apply v0 v1 v2 p q)

theorem pay3_apply (v0 : Vec Ideal S64x4096 .f32) (v1 : Vec Ideal S128x4096 .f32) (v2 : Vec Ideal S128x4096 .i32)
    (p : Fin 64) (q : Fin 128) :
    k0_pay3 (F := Ideal) v0 v1 v2 (ix2 p q)
      = ∑ k : Fin 4096, v0 (ix2 p k) * (v1 (ix2 q k) * ((((IntOp.cmpi .ne (v2 (ix2 q k)) 0#32).setWidth 32).toInt : ℝ) : EReal)) :=
  (congrFun (pay3_eq v0 v1 v2) (ix2 p q)).trans (panel_apply v0 v1 v2 p q)

theorem pay4_apply (v0 : Vec Ideal S64x4096 .f32) (v1 : Vec Ideal S128x4096 .f32) (v2 : Vec Ideal S128x4096 .i32)
    (p : Fin 64) (q : Fin 128) :
    k0_pay4 (F := Ideal) v0 v1 v2 (ix2 p q)
      = ∑ k : Fin 4096, v0 (ix2 p k) * (v1 (ix2 q k) * ((((IntOp.cmpi .ne (v2 (ix2 q k)) 0#32).setWidth 32).toInt : ℝ) : EReal)) :=
  (congrFun (pay4_eq v0 v1 v2) (ix2 p q)).trans (panel_apply v0 v1 v2 p q)

end Cert.MaskedLinear

end
-- ==== Proof.IdealPanel.lean ====
/-
  The output buffer after the body, as one function of its index.

  The body's four stores tile the 64 × 512 output buffer in column slices of 128. Slice r holds the activations' block
  contracted against stream r's rows of the masked weights, so a function of the buffer's index that agrees with those
  four contractions slice by slice IS the buffer. And when the blocks hold the activations' row p, the weights' row o
  and the word copies of the mask's row o, one such contraction is the specification's entry (p, o): a mask word made
  by widening a bit, compared against zero and read back as a signed integer, is the bit read as 0 or 1.
-/
import proofs.«173766_g76295799046852_cont_9to1_m_449_5_alg».proof.Proof.IdealBody
import proofs.«173766_g76295799046852_cont_9to1_m_449_5_alg».proof.Proof.PayloadIdx
import proofs.«173766_g76295799046852_cont_9to1_m_449_5_alg».proof.Proof.Spec
import Idealize.ShloMosaic.Lib.Pipeline.Value
import Idealize.ShloMosaic.Lib.ValueIdx

set_option maxRecDepth 16384

noncomputable section

open scoped BigOperators

namespace Cert.KernelIdeal.Frame

open Cert.KernelIdeal Cert.KernelIdeal.Gen
open Idealize.ShloMosaic Idealize.ShloMosaic.TcCoe Idealize.ShloMosaic.ValueIdx
open Idealize.SL.Sem

/-! ## The output buffer after the body, slice by slice -/

theorem hz : (![0, 0] : Fin 2 → Nat) = fun _ => 0 := funext fun a => by fin_cases a <;> rfl

/-- A mask word as the body reads it: compared against zero, widened, read as a signed integer. -/
abbrev wordVal (b : BitVec 32) : EReal := ((((IntOp.cmpi .ne b 0#32).setWidth 32).toInt : ℝ) : EReal)

/-- An entry of a column slice sits in the buffer at the slice's first column plus its own. -/
theorem col_emb (c0 : Nat) (inb : ∀ a, (![0, c0] : Fin 2 → Nat) a + S64x128.size a ≤ S64x512.size a) (p : Fin 64) (q : Fin 128) (j : Fin 512)
    (hj : j.val = c0 + q.val) :
    (Rect.unit (s := S64x512) ![0, c0] S64x128.size inb).emb (ix2 p q) = ix2 p j :=
  funext fun a => Fin.ext (by
    match a with
    | ⟨0, _⟩ => show 0 + 1 * p.val = p.val; omega
    | ⟨1, _⟩ => show c0 + 1 * q.val = j.val; omega)

/-- If a function of the buffer's index agrees, on each of the four column slices, with the activations contracted
    against that stream's masked rows, the buffer after the body is that function. -/
theorem outBuf_eq (x : Vec Ideal S64x4096 .f32) (w0 w1 w2 w3 : Vec Ideal S128x4096 .f32) (k0 k1 k2 k3 : Vec Ideal S128x4096 .i32)
    (G : S64x512.Idx → EReal)
    (h0 : ∀ (p : Fin 64) (q : Fin 128) (j : Fin 512), j.val = 0 + q.val →
      ∑ k : Fin 4096, x (ix2 p k) * (w0 (ix2 q k) * wordVal (k0 (ix2 q k))) = G (ix2 p j))
    (h1 : ∀ (p : Fin 64) (q : Fin 128) (j : Fin 512), j.val = 128 + q.val →
      ∑ k : Fin 4096, x (ix2 p k) * (w1 (ix2 q k) * wordVal (k1 (ix2 q k))) = G (ix2 p j))
    (h2 : ∀ (p : Fin 64) (q : Fin 128) (j : Fin 512), j.val = 256 + q.val →
      ∑ k : Fin 4096, x (ix2 p k) * (w2 (ix2 q k) * wordVal (k2 (ix2 q k))) = G (ix2 p j))
    (h3 : ∀ (p : Fin 64) (q : Fin 128) (j : Fin 512), j.val = 384 + q.val →
      ∑ k : Fin 4096, x (ix2 p k) * (w3 (ix2 q k) * wordVal (k3 (ix2 q k))) = G (ix2 p j)) :
    outBuf x w0 w1 w2 w3 k0 k1 k2 k3 = G := by
  funext y
  unfold outBuf
  refine View.canon_apply_of_pieces (Val := Elt Ideal) (S := S64x512) (e := .f32) G _ ?_ y (outBuf_cover _ _ _ _ y)
  intro pc hpc z
  simp only [List.mem_cons, List.not_mem_nil, or_false] at hpc
  rcases hpc with rfl | rfl | rfl | rfl
  · obtain ⟨p, q, rfl⟩ : ∃ (p : Fin 64) (q : Fin 128), z = ix2 p q := ⟨z 0, z 1, eq_ix2 z⟩
    show k0_pay1 (F := Ideal) (View.ld x rAct) (View.ld w3 rRows) (View.ld k3 rRows) (ix2 p q) = G (rCol3.emb (ix2 p q))
    rw [View.ld_unit_zero (S := S64x4096) hz, View.ld_unit_zero (S := S128x4096) hz, View.ld_unit_zero (S := S128x4096) hz,
      Cert.MaskedLinear.pay1_apply, col_emb 384 _ p q ⟨384 + q.val, by omega⟩ rfl]
    exact h3 p q _ rfl
  · obtain ⟨p, q, rfl⟩ : ∃ (p : Fin 64) (q : Fin 128), z = ix2 p q := ⟨z 0, z 1, eq_ix2 z⟩
    show k0_pay4 (F := Ideal) (View.ld x rAct) (View.ld w2 rRows) (View.ld k2 rRows) (ix2 p q) = G (rCol2.emb (ix2 p q))
    rw [View.ld_unit_zero (S := S64x4096) hz, View.ld_unit_zero (S := S128x4096) hz, View.ld_unit_zero (S := S128x4096) hz,
      Cert.MaskedLinear.pay4_apply, col_emb 256 _ p q ⟨256 + q.val, by omega⟩ rfl]
    exact h2 p q _ rfl
  · obtain ⟨p, q, rfl⟩ : ∃ (p : Fin 64) (q : Fin 128), z = ix2 p q := ⟨z 0, z 1, eq_ix2 z⟩
    show k0_pay3 (F := Ideal) (View.ld x rAct) (View.ld w1 rRows) (View.ld k1 rRows) (ix2 p q) = G (rCol1.emb (ix2 p q))
    rw [View.ld_unit_zero (S := S64x4096) hz, View.ld_unit_zero (S := S128x4096) hz, View.ld_unit_zero (S := S128x4096) hz,
      Cert.MaskedLinear.pay3_apply, col_emb 128 _ p q ⟨128 + q.val, by omega⟩ rfl]
    exact h1 p q _ rfl
  · obtain ⟨p, q, rfl⟩ : ∃ (p : Fin 64) (q : Fin 128), z = ix2 p q := ⟨z 0, z 1, eq_ix2 z⟩
    show k0_pay2 (F := Ideal) (View.ld x rAct) (View.ld w0 rRows) (View.ld k0 rRows) (ix2 p q) = G (rCol0.emb (ix2 p q))
    rw [View.ld_unit_zero (S := S64x4096) hz, View.ld_unit_zero (S := S128x4096) hz, View.ld_unit_zero (S := S128x4096) hz,
      Cert.MaskedLinear.pay2_apply, col_emb 0 _ p q ⟨0 + q.val, by omega⟩ rfl]
    exact h0 p q _ rfl

/-- One slice's sum against the specification: when the three blocks hold the activations' row p, the weights' row o
    and the word copies of the mask's row o, the contraction is the specification's entry (p, o). -/
theorem slice_sum (X : S64x4096.Idx → EReal) (W : S4096x4096.Idx → EReal) (MK : S4096x4096.Idx → BitVec 1)
    (x : Vec Ideal S64x4096 .f32) (w : Vec Ideal S128x4096 .f32) (kk : Vec Ideal S128x4096 .i32)
    (p : Fin 64) (q : Fin 128) (o : Fin 4096)
    (hx : ∀ k : Fin 4096, x (ix2 p k) = X (ix2 p k))
    (hw : ∀ k : Fin 4096, w (ix2 q k) = W (ix2 o k))
    (hk : ∀ k : Fin 4096, kk (ix2 q k) = (MK (ix2 o k)).setWidth 32) :
    ∑ k : Fin 4096, x (ix2 p k) * (w (ix2 q k) * wordVal (kk (ix2 q k))) = Cert.MaskedLinear.out X W MK (ix2 p o) := by
  rw [Cert.MaskedLinear.out_apply]
  unfold Cert.MaskedLinear.entry
  refine Finset.sum_congr rfl fun k _ => ?_
  rw [hx k, hw k, hk k]
  show _ * (_ * ((((IntOp.cmpi .ne ((MK (ix2 o k)).setWidth 32) 0#32).setWidth 32).toInt : ℝ) : EReal)) = _
  rw [Cert.MaskedLinear.word_bit]
  rfl

end Cert.KernelIdeal.Frame

end
-- ==== Proof.IdealArray.lean ====
/-
  From the blocks to the array: the result array after the run is the specification of the launch arrays.

  The grid has 8 points. At point t the pipeline hands the body the whole activations, rows 128 (4 t + r) onwards of
  the weights and of the mask's r-th word copy for each stream r = 0..3, and writes the 64 × 512 output buffer back to
  columns 512 t onwards of the result. The buffer's column 128 r + q is the activations against row 128 (4 t + r) + q
  of the masked weights, which is column 512 t + 128 r + q of the specification; so each point writes back the
  specification's own block, the 8 blocks tile the result, and the result ends holding the specification.
-/
import proofs.«173766_g76295799046852_cont_9to1_m_449_5_alg».proof.Proof.IdealData
import proofs.«173766_g76295799046852_cont_9to1_m_449_5_alg».proof.Proof.IdealPanel
import proofs.«173766_g76295799046852_cont_9to1_m_449_5_alg».proof.Proof.Spec
import Idealize.ShloMosaic.Lib.Pipeline.Value
import Idealize.ShloMosaic.Lib.ValueIdx

set_option maxRecDepth 16384

noncomputable section

open scoped BigOperators

namespace Cert.KernelIdeal.Frame

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable (m : (ℓ : Loc nD τ sig) → Buf (Elt Ideal) ℓ)

/-! ## The mask's word copies

Before the launch the mask is widened, bit by bit, to 32-bit words, four times over; each copy is that widening of the
mask as launched. -/

theorem entry_main_v0 (c : Dev nD) :
    (entry m c main_v0 : S4096x4096.Idx → BitVec 32) = extui 32 (m ((c : Thread nD τ).loc main_arg2)) natLt_1_32 := by
  dsimp only [entry, hostOps0]; after_results
theorem entry_main_v1 (c : Dev nD) :
    (entry m c main_v1 : S4096x4096.Idx → BitVec 32) = extui 32 (m ((c : Thread nD τ).loc main_arg2)) natLt_1_32 := by
  dsimp only [entry, hostOps0]; after_results
theorem entry_main_v2 (c : Dev nD) :
    (entry m c main_v2 : S4096x4096.Idx → BitVec 32) = extui 32 (m ((c : Thread nD τ).loc main_arg2)) natLt_1_32 := by
  dsimp only [entry, hostOps0]; after_results
theorem entry_main_v3 (c : Dev nD) :
    (entry m c main_v3 : S4096x4096.Idx → BitVec 32) = extui 32 (m ((c : Thread nD τ).loc main_arg2)) natLt_1_32 := by
  dsimp only [entry, hostOps0]; after_results

/-! ## The index maps over the grid

At point t the activations' window and the result's row index stay at 0; stream r of the weights and of the mask
selects block row 4 t + r; the result's window selects block column t. -/

theorem block_indices : ∀ t : Fin cfg0.N,
    win0_0.index t (0 : Fin 2) = 0 ∧ win0_0.index t (1 : Fin 2) = 0
    ∧ win0_1.index t (0 : Fin 2) = 4 * t.val + 0 ∧ win0_1.index t (1 : Fin 2) = 0
    ∧ win0_2.index t (0 : Fin 2) = 4 * t.val + 1 ∧ win0_2.index t (1 : Fin 2) = 0
    ∧ win0_3.index t (0 : Fin 2) = 4 * t.val + 2 ∧ win0_3.index t (1 : Fin 2) = 0
    ∧ win0_4.index t (0 : Fin 2) = 4 * t.val + 3 ∧ win0_4.index t (1 : Fin 2) = 0
    ∧ win0_5.index t (0 : Fin 2) = 4 * t.val + 0 ∧ win0_5.index t (1 : Fin 2) = 0
    ∧ win0_6.index t (0 : Fin 2) = 4 * t.val + 1 ∧ win0_6.index t (1 : Fin 2) = 0
    ∧ win0_7.index t (0 : Fin 2) = 4 * t.val + 2 ∧ win0_7.index t (1 : Fin 2) = 0
    ∧ win0_8.index t (0 : Fin 2) = 4 * t.val + 3 ∧ win0_8.index t (1 : Fin 2) = 0
    ∧ win0_9.index t (0 : Fin 2) = 0 ∧ win0_9.index t (1 : Fin 2) = t.val :=
  (by decide +kernel : ∀ t : Fin grid0.N, _)

/-! ## The blocks, read at an index

A block's entry sits in its array, on each axis, at the block index times the block's extent plus the entry's own
coordinate. -/

/-- The activations' block is the whole array. -/
theorem act_block_apply (c : Dev nD) (t : Fin cfg0.N) (p : Fin 64) (k : Fin 4096) :
    (blockAt m c 0 t : Vec Ideal S64x4096 .f32) (ix2 p k) = (m ((c : Thread nD τ).loc main_arg0) : S64x4096.Idx → EReal) (ix2 p k) := by
  obtain ⟨e00, e01, e10, e11, e20, e21, e30, e31, e40, e41, e50, e51, e60, e61, e70, e71, e80, e81, e90, e91⟩ := block_indices t
  unfold blockAt
  rw [View.read_apply]
  show entry m c main_arg0 _ = _
  rw [entry_main_arg0]
  congr 1
  funext a; apply Fin.ext
  match a with
  | ⟨0, _⟩ => show win0_0.index t (0 : Fin 2) * 64 + 1 * p.val = p.val; omega
  | ⟨1, _⟩ => show win0_0.index t (1 : Fin 2) * 4096 + 1 * k.val = k.val; omega

/-- Stream 0's block of the weights is rows 128 (4 t + 0) onwards. -/
theorem weight_block0_apply (c : Dev nD) (t : Fin cfg0.N) (q : Fin 128) (k : Fin 4096) (o : Fin 4096) (ho : o.val = 128 * (4 * t.val + 0) + q.val) :
    (blockAt m c 1 t : Vec Ideal S128x4096 .f32) (ix2 q k) = (m ((c : Thread nD τ).loc main_arg1) : S4096x4096.Idx → EReal) (ix2 o k) := by
  obtain ⟨e00, e01, e10, e11, e20, e21, e30, e31, e40, e41, e50, e51, e60, e61, e70, e71, e80, e81, e90, e91⟩ := block_indices t
  unfold blockAt
  rw [View.read_apply]
  show entry m c main_arg1 _ = _
  rw [entry_main_arg1]
  congr 1
  funext a; apply Fin.ext
  match a with
  | ⟨0, _⟩ => show win0_1.index t (0 : Fin 2) * 128 + 1 * q.val = o.val; omega
  | ⟨1, _⟩ => show win0_1.index t (1 : Fin 2) * 4096 + 1 * k.val = k.val; omega

/-- Stream 1's block of the weights is rows 128 (4 t + 1) onwards. -/
theorem weight_block1_apply (c : Dev nD) (t : Fin cfg0.N) (q : Fin 128) (k : Fin 4096) (o : Fin 4096) (ho : o.val = 128 * (4 * t.val + 1) + q.val) :
    (blockAt m c 2 t : Vec Ideal S128x4096 .f32) (ix2 q k) = (m ((c : Thread nD τ).loc main_arg1) : S4096x4096.Idx → EReal) (ix2 o k) := by
  obtain ⟨e00, e01, e10, e11, e20, e21, e30, e31, e40, e41, e50, e51, e60, e61, e70, e71, e80, e81, e90, e91⟩ := block_indices t
  unfold blockAt
  rw [View.read_apply]
  show entry m c main_arg1 _ = _
  rw [entry_main_arg1]
  congr 1
  funext a; apply Fin.ext
  match a with
  | ⟨0, _⟩ => show win0_2.index t (0 : Fin 2) * 128 + 1 * q.val = o.val; omega
  | ⟨1, _⟩ => show win0_2.index t (1 : Fin 2) * 4096 + 1 * k.val = k.val; omega

/-- Stream 2's block of the weights is rows 128 (4 t + 2) onwards. -/
theorem weight_block2_apply (c : Dev nD) (t : Fin cfg0.N) (q : Fin 128) (k : Fin 4096) (o : Fin 4096) (ho : o.val = 128 * (4 * t.val + 2) + q.val) :
    (blockAt m c 3 t : Vec Ideal S128x4096 .f32) (ix2 q k) = (m ((c : Thread nD τ).loc main_arg1) : S4096x4096.Idx → EReal) (ix2 o k) := by
  obtain ⟨e00, e01, e10, e11, e20, e21, e30, e31, e40, e41, e50, e51, e60, e61, e70, e71, e80, e81, e90, e91⟩ := block_indices t
  unfold blockAt
  rw [View.read_apply]
  show entry m c main_arg1 _ = _
  rw [entry_main_arg1]
  congr 1
  funext a; apply Fin.ext
  match a with
  | ⟨0, _⟩ => show win0_3.index t (0 : Fin 2) * 128 + 1 * q.val = o.val; omega
  | ⟨1, _⟩ => show win0_3.index t (1 : Fin 2) * 4096 + 1 * k.val = k.val; omega

/-- Stream 3's block of the weights is rows 128 (4 t + 3) onwards. -/
theorem weight_block3_apply (c : Dev nD) (t : Fin cfg0.N) (q : Fin 128) (k : Fin 4096) (o : Fin 4096) (ho : o.val = 128 * (4 * t.val + 3) + q.val) :
    (blockAt m c 4 t : Vec Ideal S128x4096 .f32) (ix2 q k) = (m ((c : Thread nD τ).loc main_arg1) : S4096x4096.Idx → EReal) (ix2 o k) := by
  obtain ⟨e00, e01, e10, e11, e20, e21, e30, e31, e40, e41, e50, e51, e60, e61, e70, e71, e80, e81, e90, e91⟩ := block_indices t
  unfold blockAt
  rw [View.read_apply]
  show entry m c main_arg1 _ = _
  rw [entry_main_arg1]
  congr 1
  funext a; apply Fin.ext
  match a with
  | ⟨0, _⟩ => show win0_4.index t (0 : Fin 2) * 128 + 1 * q.val = o.val; omega
  | ⟨1, _⟩ => show win0_4.index t (1 : Fin 2) * 4096 + 1 * k.val = k.val; omega

/-- Stream 0's block of the mask's word copy is the same rows, each word the widened bit. -/
theorem mask_block0_apply (c : Dev nD) (t : Fin cfg0.N) (q : Fin 128) (k : Fin 4096) (o : Fin 4096) (ho : o.val = 128 * (4 * t.val + 0) + q.val) :
    (blockAt m c 5 t : Vec Ideal S128x4096 .i32) (ix2 q k) = ((m ((c : Thread nD τ).loc main_arg2) : S4096x4096.Idx → BitVec 1) (ix2 o k)).setWidth 32 := by
  obtain ⟨e00, e01, e10, e11, e20, e21, e30, e31, e40, e41, e50, e51, e60, e61, e70, e71, e80, e81, e90, e91⟩ := block_indices t
  unfold blockAt
  rw [View.read_apply]
  show (entry m c main_v0 : S4096x4096.Idx → BitVec 32) _ = _
  rw [entry_main_v0]
  show ((m ((c : Thread nD τ).loc main_arg2) : S4096x4096.Idx → BitVec 1) _).setWidth 32 = _
  congr 2
  funext a; apply Fin.ext
  match a with
  | ⟨0, _⟩ => show win0_5.index t (0 : Fin 2) * 128 + 1 * q.val = o.val; omega
  | ⟨1, _⟩ => show win0_5.index t (1 : Fin 2) * 4096 + 1 * k.val = k.val; omega

/-- Stream 1's block of the mask's word copy is the same rows, each word the widened bit. -/
theorem mask_block1_apply (c : Dev nD) (t : Fin cfg0.N) (q : Fin 128) (k : Fin 4096) (o : Fin 4096) (ho : o.val = 128 * (4 * t.val + 1) + q.val) :
    (blockAt m c 6 t : Vec Ideal S128x4096 .i32) (ix2 q k) = ((m ((c : Thread nD τ).loc main_arg2) : S4096x4096.Idx → BitVec 1) (ix2 o k)).setWidth 32 := by
  obtain ⟨e00, e01, e10, e11, e20, e21, e30, e31, e40, e41, e50, e51, e60, e61, e70, e71, e80, e81, e90, e91⟩ := block_indices t
  unfold blockAt
  rw [View.read_apply]
  show (entry m c main_v1 : S4096x4096.Idx → BitVec 32) _ = _
  rw [entry_main_v1]
  show ((m ((c : Thread nD τ).loc main_arg2) : S4096x4096.Idx → BitVec 1) _).setWidth 32 = _
  congr 2
  funext a; apply Fin.ext
  match a with
  | ⟨0, _⟩ => show win0_6.index t (0 : Fin 2) * 128 + 1 * q.val = o.val; omega
  | ⟨1, _⟩ => show win0_6.index t (1 : Fin 2) * 4096 + 1 * k.val = k.val; omega

/-- Stream 2's block of the mask's word copy is the same rows, each word the widened bit. -/
theorem mask_block2_apply (c : Dev nD) (t : Fin cfg0.N) (q : Fin 128) (k : Fin 4096) (o : Fin 4096) (ho : o.val = 128 * (4 * t.val + 2) + q.val) :
    (blockAt m c 7 t : Vec Ideal S128x4096 .i32) (ix2 q k) = ((m ((c : Thread nD τ).loc main_arg2) : S4096x4096.Idx → BitVec 1) (ix2 o k)).setWidth 32 := by
  obtain ⟨e00, e01, e10, e11, e20, e21, e30, e31, e40, e41, e50, e51, e60, e61, e70, e71, e80, e81, e90, e91⟩ := block_indices t
  unfold blockAt
  rw [View.read_apply]
  show (entry m c main_v2 : S4096x4096.Idx → BitVec 32) _ = _
  rw [entry_main_v2]
  show ((m ((c : Thread nD τ).loc main_arg2) : S4096x4096.Idx → BitVec 1) _).setWidth 32 = _
  congr 2
  funext a; apply Fin.ext
  match a with
  | ⟨0, _⟩ => show win0_7.index t (0 : Fin 2) * 128 + 1 * q.val = o.val; omega
  | ⟨1, _⟩ => show win0_7.index t (1 : Fin 2) * 4096 + 1 * k.val = k.val; omega

/-- Stream 3's block of the mask's word copy is the same rows, each word the widened bit. -/
theorem mask_block3_apply (c : Dev nD) (t : Fin cfg0.N) (q : Fin 128) (k : Fin 4096) (o : Fin 4096) (ho : o.val = 128 * (4 * t.val + 3) + q.val) :
    (blockAt m c 8 t : Vec Ideal S128x4096 .i32) (ix2 q k) = ((m ((c : Thread nD τ).loc main_arg2) : S4096x4096.Idx → BitVec 1) (ix2 o k)).setWidth 32 := by
  obtain ⟨e00, e01, e10, e11, e20, e21, e30, e31, e40, e41, e50, e51, e60, e61, e70, e71, e80, e81, e90, e91⟩ := block_indices t
  unfold blockAt
  rw [View.read_apply]
  show (entry m c main_v3 : S4096x4096.Idx → BitVec 32) _ = _
  rw [entry_main_v3]
  show ((m ((c : Thread nD τ).loc main_arg2) : S4096x4096.Idx → BitVec 1) _).setWidth 32 = _
  congr 2
  funext a; apply Fin.ext
  match a with
  | ⟨0, _⟩ => show win0_8.index t (0 : Fin 2) * 128 + 1 * q.val = o.val; omega
  | ⟨1, _⟩ => show win0_8.index t (1 : Fin 2) * 4096 + 1 * k.val = k.val; omega

/-- The result's block at point t is columns 512 t onwards. -/
theorem result_block_apply (t : Fin cfg0.N) (G : S64x4096.Idx → EReal) (p : Fin 64) (j : Fin 512) (o : Fin 4096)
    (ho : o.val = 512 * t.val + j.val) :
    (((cfg0.win 9).blk t).view.read (Elt Ideal) G : S64x512.Idx → EReal) (ix2 p j) = G (ix2 p o) := by
  obtain ⟨e00, e01, e10, e11, e20, e21, e30, e31, e40, e41, e50, e51, e60, e61, e70, e71, e80, e81, e90, e91⟩ := block_indices t
  rw [View.read_apply]
  show G _ = _
  congr 1
  funext a; apply Fin.ext
  match a with
  | ⟨0, _⟩ => show win0_9.index t (0 : Fin 2) * 64 + 1 * p.val = p.val; omega
  | ⟨1, _⟩ => show win0_9.index t (1 : Fin 2) * 512 + 1 * j.val = o.val; omega

/-! ## What each point writes back

At point t the output buffer's column 128 r + q, for stream r, is the activations against row 128 (4 t + r) + q of the
masked weights: column 512 t + 128 r + q of the specification. So the buffer is the specification's block (0, t). -/

/-- The specification of the launch arrays, as contents of the result array. -/
abbrev spec (c : Dev nD) : S64x4096.Idx → EReal :=
  Cert.MaskedLinear.out (m ((c : Thread nD τ).loc main_arg0)) (m ((c : Thread nD τ).loc main_arg1)) (m ((c : Thread nD τ).loc main_arg2))

/-- Its block (0, t): columns 512 t onwards. -/
def specBlock (c : Dev nD) (t : Fin cfg0.N) : S64x512.Idx → EReal :=
  ((cfg0.win 9).blk t).view.read (Elt Ideal) (spec m c)

theorem specBlock_apply (c : Dev nD) (t : Fin cfg0.N) (p : Fin 64) (j : Fin 512) (o : Fin 4096) (ho : o.val = 512 * t.val + j.val) :
    specBlock m c t (ix2 p j) = spec m c (ix2 p o) := by
  unfold specBlock
  exact result_block_apply t (spec m c) p j o ho

/-- Stream r's slice of the buffer, from blocks that are the activations, rows 128 (4 t + r) onwards of the weights and
    the same rows of the mask's word copy: the specification's block at columns 128 r onwards. -/
theorem slice_eq (c : Dev nD) (t : Fin cfg0.N) (r c0 : Nat) (hr : r < 4) (hc0 : c0 = 128 * r)
    (x : Vec Ideal S64x4096 .f32) (w : Vec Ideal S128x4096 .f32) (kk : Vec Ideal S128x4096 .i32)
    (hx : ∀ (p : Fin 64) (k : Fin 4096), x (ix2 p k) = (m ((c : Thread nD τ).loc main_arg0) : S64x4096.Idx → EReal) (ix2 p k))
    (hw : ∀ (q : Fin 128) (k : Fin 4096) (o : Fin 4096), o.val = 128 * (4 * t.val + r) + q.val →
      w (ix2 q k) = (m ((c : Thread nD τ).loc main_arg1) : S4096x4096.Idx → EReal) (ix2 o k))
    (hk : ∀ (q : Fin 128) (k : Fin 4096) (o : Fin 4096), o.val = 128 * (4 * t.val + r) + q.val →
      kk (ix2 q k) = ((m ((c : Thread nD τ).loc main_arg2) : S4096x4096.Idx → BitVec 1) (ix2 o k)).setWidth 32)
    (p : Fin 64) (q : Fin 128) (j : Fin 512) (hj : j.val = c0 + q.val) :
    ∑ k : Fin 4096, x (ix2 p k) * (w (ix2 q k) * wordVal (kk (ix2 q k))) = specBlock m c t (ix2 p j) := by
  have ht : t.val < 8 := t.isLt
  have hq : q.val < 128 := q.isLt
  have ho : 512 * t.val + j.val < 4096 := by omega
  rw [specBlock_apply m c t p j ⟨512 * t.val + j.val, ho⟩ rfl]
  exact slice_sum _ _ _ x w kk p q _ (hx p)
    (fun k => hw q k _ (by show 512 * t.val + j.val = _; omega))
    (fun k => hk q k _ (by show 512 * t.val + j.val = _; omega))

/-- What point t writes back is block (0, t) of the specification. -/
theorem written_back (c : Dev nD) (t : Fin cfg0.N) :
    (dats (F := Ideal) m 0 c).flushed 9 t = ((cfg0.win 9).blk t).view.read (Elt Ideal) (spec m c) := by
  show (cfg0.win 9).cut (grid0.coords t) ((dats m 0 c).after 9 t) = _
  rw [after_9]
  exact outBuf_eq (blockAt m c 0 t) (blockAt m c 1 t) (blockAt m c 2 t) (blockAt m c 3 t) (blockAt m c 4 t)
    (blockAt m c 5 t) (blockAt m c 6 t) (blockAt m c 7 t) (blockAt m c 8 t) (specBlock m c t)
    (slice_eq m c t 0 0 (by omega) rfl (blockAt m c 0 t) (blockAt m c 1 t) (blockAt m c 5 t) (act_block_apply m c t) (weight_block0_apply m c t) (mask_block0_apply m c t))
    (slice_eq m c t 1 128 (by omega) rfl (blockAt m c 0 t) (blockAt m c 2 t) (blockAt m c 6 t) (act_block_apply m c t) (weight_block1_apply m c t) (mask_block1_apply m c t))
    (slice_eq m c t 2 256 (by omega) rfl (blockAt m c 0 t) (blockAt m c 3 t) (blockAt m c 7 t) (act_block_apply m c t) (weight_block2_apply m c t) (mask_block2_apply m c t))
    (slice_eq m c t 3 384 (by omega) rfl (blockAt m c 0 t) (blockAt m c 4 t) (blockAt m c 8 t) (act_block_apply m c t) (weight_block3_apply m c t) (mask_block3_apply m c t))

/-! ## The blocks tile the result -/

/-- An index of the result is in point t's block iff each coordinate is in the block's range on its axis. -/
theorem mem_result_block (t : Fin cfg0.N) (i : S64x4096.Idx) :
    i ∈ ((cfg0.win 9).blk t).view.set ↔ ∀ a : Fin 2, win0_9.index t a * S64x512.size a ≤ (i a).val ∧ (i a).val < win0_9.index t a * S64x512.size a + S64x512.size a := by
  show i ∈ ((View.whole main_v4).slice (win0_9.rect t)).set ↔ _
  rw [View.set_slice_whole, Rect.mem_set_unit]
  exact Iff.rfl

/-- Column o of the result is written back by point o / 512. -/
theorem result_covered (i : S64x4096.Idx) :
    ∃ t : Fin cfg0.N, (cfg0.win 9).flush t = true ∧ i ∈ ((cfg0.win 9).blk t).view.set := by
  have hi0 : (i 0).val < 64 := (i 0).isLt
  have hi1 : (i 1).val < 4096 := (i 1).isLt
  obtain ⟨t, ht⟩ : ∃ t : Fin cfg0.N, t.val = (i 1).val / 512 := ⟨⟨(i 1).val / 512, by show _ < 8; omega⟩, rfl⟩
  obtain ⟨e00, e01, e10, e11, e20, e21, e30, e31, e40, e41, e50, e51, e60, e61, e70, e71, e80, e81, e90, e91⟩ := block_indices t
  refine ⟨t, flush0_9 t, ?_⟩
  rw [mem_result_block]
  intro a
  match a with
  | ⟨0, _⟩ => show win0_9.index t (0 : Fin 2) * 64 ≤ (i 0).val ∧ (i 0).val < win0_9.index t (0 : Fin 2) * 64 + 64; omega
  | ⟨1, _⟩ => show win0_9.index t (1 : Fin 2) * 512 ≤ (i 1).val ∧ (i 1).val < win0_9.index t (1 : Fin 2) * 512 + 512; omega

/-! ## The result array after the run -/

/-- The result array ends holding the specification of the three launch arrays. -/
theorem result_array (c : Dev nD) :
    (dats (F := Ideal) m 0 c).arrAt 9 cfg0.N
      = Cert.MaskedLinear.out (m ((c : Thread nD τ).loc main_arg0)) (m ((c : Thread nD τ).loc main_arg1)) (m ((c : Thread nD τ).loc main_arg2)) :=
  (dats (F := Ideal) m 0 c).arrAt_eq_of_cover 9 (spec m c) (fun t _ => written_back m c t) result_covered

end Cert.KernelIdeal.Frame

end
-- ==== Proof.RefSide.lean ====
/-
  The reference computes the specification.

  The reference program forms the masked weights  w[o,k] · bit(mask[o,k]),  multiplies them against the transposed
  activations, and transposes the product back:

    ref[b, o] = ((w ⊙ bit(mask)) · xᵀ)[o, b] = ∑ k, (w[o,k] · bit(mask[o,k])) · x[b,k].

  Over the extended reals multiplication is commutative, so each summand is  x[b,k] · (w[o,k] · bit(mask[o,k])),
  the summand of the specification.
-/
import proofs.«173766_g76295799046852_cont_9to1_m_449_5_alg».proof.Proof.Gen.ReferenceIdeal.Read
import proofs.«173766_g76295799046852_cont_9to1_m_449_5_alg».proof.Proof.Spec

noncomputable section

open scoped BigOperators

namespace Cert.MaskedLinear

open Idealize.ShloMosaic Idealize.ShloMosaic.ValueIdx Cert.ReferenceIdeal Cert.ReferenceIdeal.Read

/-- Undoing the two transposes: entry (b, o) of the result is entry (o, b) of the product, whose left operand is read
    at (o, k) … -/
theorem left_index (b : Fin 64) (o : Fin 4096) (k : Fin 4096) :
    lidx_main_v3 (idx_main_v4 (ix2 b o)) k = ix2 o k :=
  funext fun a => Fin.ext (by match a with | ⟨0, _⟩ => rfl | ⟨1, _⟩ => rfl)

/-- … and whose right operand, the transposed activations at (k, b), is the activations at (b, k). -/
theorem right_index (b : Fin 64) (o : Fin 4096) (k : Fin 4096) :
    idx_main_v2 (ridx_main_v3 (idx_main_v4 (ix2 b o)) k) = ix2 b k :=
  funext fun a => Fin.ext (by match a with | ⟨0, _⟩ => rfl | ⟨1, _⟩ => rfl)

/-- The reference's result is the specification's function of the three argument arrays. -/
theorem reference_eq (x : (⟨Cert.ReferenceIdeal.S64x4096, .f32⟩ : BufTy).Contents (Elt Ideal))
    (w : (⟨Cert.ReferenceIdeal.S4096x4096, .f32⟩ : BufTy).Contents (Elt Ideal))
    (mk : (⟨Cert.ReferenceIdeal.S4096x4096, .i1⟩ : BufTy).Contents (Elt Ideal)) :
    Cert.ReferenceIdeal.Read.val_main_v4 (F := Ideal) x w mk = Cert.MaskedLinear.out x w mk := by
  funext i
  obtain ⟨b, o, rfl⟩ : ∃ (b : Fin 64) (o : Fin 4096), i = ix2 b o := ⟨i 0, i 1, eq_ix2 i⟩
  rw [val_main_v4_apply, val_main_v3_apply, out_apply]
  unfold entry
  refine Finset.sum_congr rfl fun k _ => ?_
  rw [val_main_v1_apply, val_main_v0_apply, val_main_v2_apply, left_index, right_index]
  exact mul_comm _ _

end Cert.MaskedLinear

end
-- ==== Proof.lean ====
/-
  A masked linear layer computed blockwise against its plain reference.

  The kernel computes  out[b, o] = ∑ k, x[b, k] · (w[o, k] · mask[o, k])  over a grid of eight points: point t
  reads the activations x (64 × 4096) and, through four windows on the weight array and four on word copies of the
  mask, 512 rows of w and of the mask in four streams of 128 rows; for each stream it multiplies weights by mask
  entry by entry and contracts the activations against the product, filling columns [512 t, 512 t + 512) of the
  result. The reference forms the masked weights w ⊙ mask whole and computes ((w ⊙ mask) · xᵀ)ᵀ.

  At the ideal instance a float is an extended real and every operation is exact, so both programs compute the same
  sums term by term: the kernel's terms are  x[b, k] · (w[o, k] · bit)  and the reference's  (w[o, k] · bit) · x[b, k],
  equal by commutativity of multiplication — which holds on all extended reals, so the precondition (finite inputs)
  is never opened. The two readings of a mask bit agree: the kernel widens the bit to a word, tests it against zero
  and converts the 0/1 word as a signed integer; the reference converts the bit as an unsigned one.

  The frames: each kernel program is four host conversions followed by one region; its run is the pipeline library's
  launch for windows that share an array, the weight array's full share dealt in quarters to its four windows. The
  reference is a straight line of host operations, whose run is generated. The idealization rewrote no operation, so
  the preservation claim is trivial.
-/
import proofs.«173766_g76295799046852_cont_9to1_m_449_5_alg».proof.Defs
import proofs.«173766_g76295799046852_cont_9to1_m_449_5_alg».proof.Proof.Gen.Kernel
import proofs.«173766_g76295799046852_cont_9to1_m_449_5_alg».proof.Proof.Gen.KernelIdeal
import proofs.«173766_g76295799046852_cont_9to1_m_449_5_alg».proof.Proof.Gen.ReferenceIdeal
import proofs.«173766_g76295799046852_cont_9to1_m_449_5_alg».proof.Proof.Gen.Pre_finite_inputs
import proofs.«173766_g76295799046852_cont_9to1_m_449_5_alg».proof.Proof.Gen.ReferenceIdeal.Run
import proofs.«173766_g76295799046852_cont_9to1_m_449_5_alg».proof.Proof.Gen.ReferenceIdeal.Read
import proofs.«173766_g76295799046852_cont_9to1_m_449_5_alg».proof.Proof.BitsRun
import proofs.«173766_g76295799046852_cont_9to1_m_449_5_alg».proof.Proof.IdealRun
import proofs.«173766_g76295799046852_cont_9to1_m_449_5_alg».proof.Proof.IdealArray
import proofs.«173766_g76295799046852_cont_9to1_m_449_5_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs and leaves its three argument arrays as launched. -/
theorem frame_kernel : Cert.frame_Kernel := fun m ρ _ => Cert.Kernel.Frame.frame m ρ

/-- So does the idealized kernel. -/
theorem frame_kernelIdeal : Cert.frame_KernelIdeal := fun m ρ _ => Cert.KernelIdeal.Frame.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing: there is no conjunct to state. -/
theorem preserves : Cert.preserves_Kernel_KernelIdeal := trivial

/-- From memories agreeing on the three arguments, both idealized programs end with the result array at the masked
    linear layer of those arguments: the kernel's by the fold of its eight write-backs, the reference's by reading its
    five operations at an index. -/
theorem algebraic : Cert.algebraic_KernelIdeal_ReferenceIdeal := by
  intro m ρ m' ρ' _ hagree
  refine ⟨fun c => Cert.MaskedLinear.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Frame.result_array m c), (h c).2⟩)
      (Cert.KernelIdeal.Frame.run_result (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v4_eq, Cert.MaskedLinear.reference_eq,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
